-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S1600000 : Shape := ⟨1, ![1600000]⟩
abbrev S256x36 : Shape := ⟨2, ![256, 36]⟩
abbrev S36 : Shape := ⟨1, ![36]⟩
abbrev S36x36 : Shape := ⟨2, ![36, 36]⟩
abbrev S72x36 : Shape := ⟨2, ![72, 36]⟩
abbrev S36x1 : Shape := ⟨2, ![36, 1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x36 : S_.BroadcastsInDim S256x36 (![] : Fin 0 → Fin S256x36.rank)
  reducesTo_S256x36_S_d0_1 : S256x36.ReducesTo [0, 1] S_
  bcast_S_S36 : S_.BroadcastsInDim S36 (![] : Fin 0 → Fin S36.rank)
  reducesTo_S36_S_d0 : S36.ReducesTo [0] S_
  bcast_S_S36x36 : S_.BroadcastsInDim S36x36 (![] : Fin 0 → Fin S36x36.rank)
  reducesTo_S36x36_S_d0_1 : S36x36.ReducesTo [0, 1] S_
  bcast_S_S72x36 : S_.BroadcastsInDim S72x36 (![] : Fin 0 → Fin S72x36.rank)
  reducesTo_S72x36_S_d0_1 : S72x36.ReducesTo [0, 1] S_
  bcast_S_S36x1 : S_.BroadcastsInDim S36x1 (![] : Fin 0 → Fin S36x1.rank)
  reducesTo_S36x1_S_d0_1 : S36x1.ReducesTo [0, 1] S_

variable [Facts]

def fn_part2 {F : FTy → Type} [FloatOps F] (main_arg9 : FVec F S36x36 .f32) (main_arg10 : FVec F S36 .f32) (main_arg11 : FVec F S36x1 .f32) (main_v33 : IVec S_ 1) : IVec S_ 1 :=
  let main_v34 : FVec F S36x36 .f32 := Host.absf main_arg9
  let main_cst_12 : FVec F S_ .f32 := constant S_ .f32 0x7F800000#32
  let main_v35 : FVec F S36x36 .f32 := broadcastInDim S36x36 ![] bcast_S_S36x36 main_cst_12
  let main_v36 : IVec S36x36 1 := cmpf .olt main_v34 main_v35
  let main_c_13 : IVec S_ 1 := constantI S_ 1 1#1
  let main_v37 : IVec S_ 1 := (fun x v => Host.reduce IntOp.andi x v reducesTo_S36x36_S_d0_1 h_S_) main_v36 main_c_13
  let main_v38 : IVec S_ 1 := andi main_v33 main_v37
  let main_v39 : FVec F S36 .f32 := Host.absf main_arg10
  let main_cst_14 : FVec F S_ .f32 := constant S_ .f32 0x7F800000#32
  let main_v40 : FVec F S36 .f32 := broadcastInDim S36 ![] bcast_S_S36 main_cst_14
  let main_v41 : IVec S36 1 := cmpf .olt main_v39 main_v40
  let main_c_15 : IVec S_ 1 := constantI S_ 1 1#1
  let main_v42 : IVec S_ 1 := (fun x v => Host.reduce IntOp.andi x v reducesTo_S36_S_d0 h_S_) main_v41 main_c_15
  let main_v43 : IVec S_ 1 := andi main_v38 main_v42
  let main_v44 : FVec F S36x1 .f32 := Host.absf main_arg11
  let main_cst_16 : FVec F S_ .f32 := constant S_ .f32 0x7F800000#32
  let main_v45 : FVec F S36x1 .f32 := broadcastInDim S36x1 ![] bcast_S_S36x1 main_cst_16
  let main_v46 : IVec S36x1 1 := cmpf .olt main_v44 main_v45
  let main_c_17 : IVec S_ 1 := constantI S_ 1 1#1
  let main_v47 : IVec S_ 1 := (fun x v => Host.reduce IntOp.andi x v reducesTo_S36x1_S_d0_1 h_S_) main_v46 main_c_17
  let main_v48 : IVec S_ 1 := andi main_v43 main_v47
  main_v48

def fn_part1 {F : FTy → Type} [FloatOps F] (main_arg6 : FVec F S36 .f32) (main_arg7 : FVec F S72x36 .f32) (main_arg8 : FVec F S36 .f32) (main_arg9 : FVec F S36x36 .f32) (main_arg10 : FVec F S36 .f32) (main_arg11 : FVec F S36x1 .f32) (main_v13 : IVec S_ 1) (main_v16 : IVec S36x36 1) : IVec S_ 1 :=
  let main_c_5 : IVec S_ 1 := constantI S_ 1 1#1
  let main_v17 : IVec S_ 1 := (fun x v => Host.reduce IntOp.andi x v reducesTo_S36x36_S_d0_1 h_S_) main_v16 main_c_5
  let main_v18 : IVec S_ 1 := andi main_v13 main_v17
  let main_v19 : FVec F S36 .f32 := Host.absf main_arg6
  let main_cst_6 : FVec F S_ .f32 := constant S_ .f32 0x7F800000#32
  let main_v20 : FVec F S36 .f32 := broadcastInDim S36 ![] bcast_S_S36 main_cst_6
  let main_v21 : IVec S36 1 := cmpf .olt main_v19 main_v20
  let main_c_7 : IVec S_ 1 := constantI S_ 1 1#1
  let main_v22 : IVec S_ 1 := (fun x v => Host.reduce IntOp.andi x v reducesTo_S36_S_d0 h_S_) main_v21 main_c_7
  let main_v23 : IVec S_ 1 := andi main_v18 main_v22
  let main_v24 : FVec F S72x36 .f32 := Host.absf main_arg7
  let main_cst_8 : FVec F S_ .f32 := constant S_ .f32 0x7F800000#32
  let main_v25 : FVec F S72x36 .f32 := broadcastInDim S72x36 ![] bcast_S_S72x36 main_cst_8
  let main_v26 : IVec S72x36 1 := cmpf .olt main_v24 main_v25
  let main_c_9 : IVec S_ 1 := constantI S_ 1 1#1
  let main_v27 : IVec S_ 1 := (fun x v => Host.reduce IntOp.andi x v reducesTo_S72x36_S_d0_1 h_S_) main_v26 main_c_9
  let main_v28 : IVec S_ 1 := andi main_v23 main_v27
  let main_v29 : FVec F S36 .f32 := Host.absf main_arg8
  let main_cst_10 : FVec F S_ .f32 := constant S_ .f32 0x7F800000#32
  let main_v30 : FVec F S36 .f32 := broadcastInDim S36 ![] bcast_S_S36 main_cst_10
  let main_v31 : IVec S36 1 := cmpf .olt main_v29 main_v30
  let main_c_11 : IVec S_ 1 := constantI S_ 1 1#1
  let main_v32 : IVec S_ 1 := (fun x v => Host.reduce IntOp.andi x v reducesTo_S36_S_d0 h_S_) main_v31 main_c_11
  let main_v33 : IVec S_ 1 := andi main_v28 main_v32
  fn_part2 (F := F) main_arg9 main_arg10 main_arg11 main_v33

def fn {F : FTy → Type} [FloatOps F] (main_arg0 : FVec F S50000x256 .f32) (main_arg1 : IVec S1600000 32) (main_arg2 : IVec S1600000 32) (main_arg3 : FVec F S256x36 .f32) (main_arg4 : FVec F S36 .f32) (main_arg5 : FVec F S36x36 .f32) (main_arg6 : FVec F S36 .f32) (main_arg7 : FVec F S72x36 .f32) (main_arg8 : FVec F S36 .f32) (main_arg9 : FVec F S36x36 .f32) (main_arg10 : FVec F S36 .f32) (main_arg11 : FVec F S36x1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x36 .f32 := Host.absf main_arg3
  let main_cst_0 : FVec F S_ .f32 := constant S_ .f32 0x7F800000#32
  let main_v5 : FVec F S256x36 .f32 := broadcastInDim S256x36 ![] bcast_S_S256x36 main_cst_0
  let main_v6 : IVec S256x36 1 := cmpf .olt main_v4 main_v5
  let main_c_1 : IVec S_ 1 := constantI S_ 1 1#1
  let main_v7 : IVec S_ 1 := (fun x v => Host.reduce IntOp.andi x v reducesTo_S256x36_S_d0_1 h_S_) main_v6 main_c_1
  let main_v8 : IVec S_ 1 := andi main_v3 main_v7
  let main_v9 : FVec F S36 .f32 := Host.absf main_arg4
  let main_cst_2 : FVec F S_ .f32 := constant S_ .f32 0x7F800000#32
  let main_v10 : FVec F S36 .f32 := broadcastInDim S36 ![] bcast_S_S36 main_cst_2
  let main_v11 : IVec S36 1 := cmpf .olt main_v9 main_v10
  let main_c_3 : IVec S_ 1 := constantI S_ 1 1#1
  let main_v12 : IVec S_ 1 := (fun x v => Host.reduce IntOp.andi x v reducesTo_S36_S_d0 h_S_) main_v11 main_c_3
  let main_v13 : IVec S_ 1 := andi main_v8 main_v12
  let main_v14 : FVec F S36x36 .f32 := Host.absf main_arg5
  let main_cst_4 : FVec F S_ .f32 := constant S_ .f32 0x7F800000#32
  let main_v15 : FVec F S36x36 .f32 := broadcastInDim S36x36 ![] bcast_S_S36x36 main_cst_4
  let main_v16 : IVec S36x36 1 := cmpf .olt main_v14 main_v15
  fn_part1 (F := F) main_arg6 main_arg7 main_arg8 main_arg9 main_arg10 main_arg11 main_v13 main_v16
-- ==== Kernel.lean ====
abbrev S50000x256 : Shape := ⟨2, ![50000, 256]⟩
abbrev S1600000 : Shape := ⟨1, ![1600000]⟩
abbrev S256x36 : Shape := ⟨2, ![256, 36]⟩
abbrev S36 : Shape := ⟨1, ![36]⟩
abbrev S36x36 : Shape := ⟨2, ![36, 36]⟩
abbrev S72x36 : Shape := ⟨2, ![72, 36]⟩
abbrev S36x1 : Shape := ⟨2, ![36, 1]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x36 : Shape := ⟨2, ![50000, 36]⟩
abbrev S5000x256 : Shape := ⟨2, ![5000, 256]⟩
abbrev S5000x1 : Shape := ⟨2, ![5000, 1]⟩
abbrev S5000x36 : Shape := ⟨2, ![5000, 36]⟩
abbrev S1600000x36 : Shape := ⟨2, ![1600000, 36]⟩
abbrev S1x36 : Shape := ⟨2, ![1, 36]⟩
abbrev S1600000x72 : Shape := ⟨2, ![1600000, 72]⟩
abbrev S16000x72 : Shape := ⟨2, ![16000, 72]⟩
abbrev S16000x1 : Shape := ⟨2, ![16000, 1]⟩
abbrev S16000x36 : Shape := ⟨2, ![16000, 36]⟩

abbrev nBuf : Space → Nat
  | .hbm => 107
  | .vmem => 23
  | .smem => 0
  | _ => 0

abbrev bufTy : (tb : Table) → Fin (tcTables nBuf tb) → BufTy
  | .hbm, ⟨0, _⟩ => ⟨S50000x256, .f32⟩
  | .hbm, ⟨1, _⟩ => ⟨S1600000, .i32⟩
  | .hbm, ⟨2, _⟩ => ⟨S1600000, .i32⟩
  | .hbm, ⟨3, _⟩ => ⟨S256x36, .f32⟩
  | .hbm, ⟨4, _⟩ => ⟨S36, .f32⟩
  | .hbm, ⟨5, _⟩ => ⟨S36x36, .f32⟩
  | .hbm, ⟨6, _⟩ => ⟨S36, .f32⟩
  | .hbm, ⟨7, _⟩ => ⟨S72x36, .f32⟩
  | .hbm, ⟨8, _⟩ => ⟨S36, .f32⟩
  | .hbm, ⟨9, _⟩ => ⟨S36x36, .f32⟩
  | .hbm, ⟨10, _⟩ => ⟨S36, .f32⟩
  | .hbm, ⟨11, _⟩ => ⟨S36x1, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S1600000x1, .i32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x36, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x36, .f32⟩
  | .hbm, ⟨47, _⟩ => ⟨S_, .f32⟩
  | .hbm, ⟨48, _⟩ => ⟨S50000x36, .f32⟩
  | .hbm, ⟨49, _⟩ => ⟨S1600000x1, .i32⟩
  | .hbm, ⟨50, _⟩ => ⟨S50000x36, .f32⟩
  | .hbm, ⟨51, _⟩ => ⟨S50000x1, .f32⟩
  | .hbm, ⟨52, _⟩ => ⟨S50000x36, .f32⟩
  | .hbm, ⟨53, _⟩ => ⟨S50000x36, .f32⟩
  | .hbm, ⟨54, _⟩ => ⟨S1x36, .f32⟩
  | .hbm, ⟨55, _⟩ => ⟨S50000x36, .f32⟩
  | .hbm, ⟨56, _⟩ => ⟨S50000x36, .f32⟩
  | .hbm, ⟨57, _⟩ => ⟨S_, .f32⟩
  | .hbm, ⟨58, _⟩ => ⟨S50000x36, .f32⟩
  | .hbm, ⟨59, _⟩ => ⟨S50000x36, .f32⟩
  | .hbm, ⟨60, _⟩ => ⟨S50000x1, .f32⟩
  | .hbm, ⟨61, _⟩ => ⟨S50000x36, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x36, .f32⟩
  | .hbm, ⟨71, _⟩ => ⟨S_, .f32⟩
  | .hbm, ⟨72, _⟩ => ⟨S50000x36, .f32⟩
  | .hbm, ⟨73, _⟩ => ⟨S1600000x1, .i32⟩
  | .hbm, ⟨74, _⟩ => ⟨S50000x36, .f32⟩
  | .hbm, ⟨75, _⟩ => ⟨S50000x1, .f32⟩
  | .hbm, ⟨76, _⟩ => ⟨S50000x36, .f32⟩
  | .hbm, ⟨77, _⟩ => ⟨S50000x36, .f32⟩
  | .hbm, ⟨78, _⟩ => ⟨S1x36, .f32⟩
  | .hbm, ⟨79, _⟩ => ⟨S50000x36, .f32⟩
  | .hbm, ⟨80, _⟩ => ⟨S50000x36, .f32⟩
  | .hbm, ⟨81, _⟩ => ⟨S50000x36, .bf16⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x36, .bf16⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000x36, .bf16⟩
  | .hbm, ⟨100, _⟩ => ⟨S1600000x72, .bf16⟩
  | .hbm, ⟨101, _⟩ => ⟨S72x36, .bf16⟩
  | .hbm, ⟨102, _⟩ => ⟨S36x36, .bf16⟩
  | .hbm, ⟨103, _⟩ => ⟨S36x1, .bf16⟩
  | .hbm, ⟨104, _⟩ => ⟨S1x36, .f32⟩
  | .hbm, ⟨105, _⟩ => ⟨S1x36, .f32⟩
  | .hbm, ⟨106, _⟩ => ⟨S1600000x1, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x36, .f32⟩
  | .local _ .vmem, ⟨5, _⟩ => ⟨S5000x36, .f32⟩
  | .local _ .vmem, ⟨6, _⟩ => ⟨S5000x36, .f32⟩
  | .local _ .vmem, ⟨7, _⟩ => ⟨S5000x36, .f32⟩
  | .local _ .vmem, ⟨8, _⟩ => ⟨S5000x36, .f32⟩
  | .local _ .vmem, ⟨9, _⟩ => ⟨S5000x1, .f32⟩
  | .local _ .vmem, ⟨10, _⟩ => ⟨S5000x1, .f32⟩
  | .local _ .vmem, ⟨11, _⟩ => ⟨S36x36, .f32⟩
  | .local _ .vmem, ⟨12, _⟩ => ⟨S5000x36, .f32⟩
  | .local _ .vmem, ⟨13, _⟩ => ⟨S5000x36, .f32⟩
  | .local _ .vmem, ⟨14, _⟩ => ⟨S16000x72, .bf16⟩
  | .local _ .vmem, ⟨15, _⟩ => ⟨S16000x72, .bf16⟩
  | .local _ .vmem, ⟨16, _⟩ => ⟨S72x36, .bf16⟩
  | .local _ .vmem, ⟨17, _⟩ => ⟨S1x36, .f32⟩
  | .local _ .vmem, ⟨18, _⟩ => ⟨S36x36, .bf16⟩
  | .local _ .vmem, ⟨19, _⟩ => ⟨S1x36, .f32⟩
  | .local _ .vmem, ⟨20, _⟩ => ⟨S36x1, .bf16⟩
  | .local _ .vmem, ⟨21, _⟩ => ⟨S16000x1, .f32⟩
  | .local _ .vmem, ⟨22, _⟩ => ⟨S16000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v7 : Ref sig .tc := ⟨.hbm, 25, rfl⟩
abbrev main_cst_3 : Ref sig .tc := ⟨.hbm, 26, rfl⟩
abbrev main_v8 : Ref sig .tc := ⟨.hbm, 27, rfl⟩
abbrev main_v9 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v10 : Ref sig .tc := ⟨.hbm, 32, rfl⟩
abbrev main_cst_5 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_6 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_7 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_call2_cst : Ref sig .tc := ⟨.hbm, 57, rfl⟩
abbrev main_call2_v0 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_8 : Ref sig .tc := ⟨.hbm, 62, rfl⟩
abbrev main_v34 : Ref sig .tc := ⟨.hbm, 63, rfl⟩
abbrev main_v35 : Ref sig .tc := ⟨.hbm, 64, rfl⟩
abbrev main_c_9 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_10 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_11 : Ref sig .tc := ⟨.hbm, 82, rfl⟩
abbrev main_v51 : Ref sig .tc := ⟨.hbm, 83, rfl⟩
abbrev main_v52 : Ref sig .tc := ⟨.hbm, 84, rfl⟩
abbrev main_c_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_13 : Ref sig .tc := ⟨.hbm, 91, rfl⟩
abbrev main_v58 : Ref sig .tc := ⟨.hbm, 92, rfl⟩
abbrev main_v59 : Ref sig .tc := ⟨.hbm, 93, rfl⟩
abbrev main_c_14 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x36 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x36 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x36 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S36x36 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x36 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x72 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S72x36 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x36 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S36x36 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x36 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S36x1 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S16000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S256x36_S256x36_0_0 : ∀ a, (![0, 0] : Fin 2 → Nat) a + S256x36.size a ≤ S256x36.size a
  h_S256x36 : 0 < S256x36.numel
  inb_S5000x36_S5000x36_0_0 : ∀ a, (![0, 0] : Fin 2 → Nat) a + S5000x36.size a ≤ S5000x36.size a
  h_S5000x36 : 0 < S5000x36.numel
  bcast_S_S50000x36 : S_.BroadcastsInDim S50000x36 (![] : Fin 0 → Fin S50000x36.rank)
  bcast_S50000x1_S50000x36_0_1 : S50000x1.BroadcastsInDim S50000x36 (![0, 1] : Fin 2 → Fin S50000x36.rank)
  bcast_S36_S1x36_1 : S36.BroadcastsInDim S1x36 (![1] : Fin 1 → Fin S1x36.rank)
  bcast_S1x36_S50000x36_0_1 : S1x36.BroadcastsInDim S50000x36 (![0, 1] : Fin 2 → Fin S50000x36.rank)
  shapeCasts_S5000x36_S5000x36 : S5000x36.ShapeCasts S5000x36
  broadcasts_S5000x1_S5000x36 : S5000x1.Broadcasts S5000x36
  inb_S36x36_S36x36_0_0 : ∀ a, (![0, 0] : Fin 2 → Nat) a + S36x36.size a ≤ S36x36.size a
  h_S36x36 : 0 < S36x36.numel
  bitsLt_bf16_f32 : FTy.bits .bf16 < FTy.bits .f32
  concatenates_S1600000x36_S1600000x36_S1600000x72_d1 : Shape.Concatenates [S1600000x36, S1600000x36] S1600000x72 1
  shapeCasts_S36_S1x36 : S36.ShapeCasts S1x36
  inb_S16000x72_S16000x72_0_0 : ∀ a, (![0, 0] : Fin 2 → Nat) a + S16000x72.size a ≤ S16000x72.size a
  h_S16000x72 : 0 < S16000x72.numel
  shapeCasts_S16000x72_S16000x72 : S16000x72.ShapeCasts S16000x72
  inb_S72x36_S72x36_0_0 : ∀ a, (![0, 0] : Fin 2 → Nat) a + S72x36.size a ≤ S72x36.size a
  h_S72x36 : 0 < S72x36.numel
  shapeCasts_S72x36_S72x36 : S72x36.ShapeCasts S72x36
  inb_S1x36_S1x36_0_0 : ∀ a, (![0, 0] : Fin 2 → Nat) a + S1x36.size a ≤ S1x36.size a
  h_S1x36 : 0 < S1x36.numel
  shapeCasts_S1x36_S1x36 : S1x36.ShapeCasts S1x36
  broadcasts_S1x36_S16000x36 : S1x36.Broadcasts S16000x36
  shapeCasts_S36x36_S36x36 : S36x36.ShapeCasts S36x36
  inb_S36x1_S36x1_0_0 : ∀ a, (![0, 0] : Fin 2 → Nat) a + S36x1.size a ≤ S36x1.size a
  h_S36x1 : 0 < S36x1.numel
  shapeCasts_S36x1_S36x1 : S36x1.ShapeCasts S36x1
  inb_S16000x1_S16000x1_0_0 : ∀ a, (![0, 0] : Fin 2 → Nat) a + S16000x1.size a ≤ S16000x1.size a
  h_S16000x1 : 0 < S16000x1.numel
  scatter_S50000_S1600000x1_S1600000_n_0_0_1_wf : ScatterDims.WF S50000 S1600000x1 S1600000 [] [0] [0] 1
  dot_S5000x256_S256x36_S5000x36_1_0_0_1_n_n_wf : DotDims.WF S5000x256 S256x36 S5000x36 [1] [0] [0] [1] [] []
  gather_S50000x36_S1600000x1_S1600000x36_1_0_n_n_0_1_136_wf : GatherDims.WF S50000x36 S1600000x1 S1600000x36 [1] [0] [] [0] [] 1 ![1, 36]
  scatter_S50000x36_S1600000x1_S1600000x36_1_0_0_1_wf : ScatterDims.WF S50000x36 S1600000x1 S1600000x36 [1] [0] [0] 1
  dot_S5000x36_S36x36_S5000x36_1_0_0_1_n_n_wf : DotDims.WF S5000x36 S36x36 S5000x36 [1] [0] [0] [1] [] []
  dot_S16000x72_S72x36_S16000x36_1_0_0_1_n_n_wf : DotDims.WF S16000x72 S72x36 S16000x36 [1] [0] [0] [1] [] []
  dot_S16000x36_S36x36_S16000x36_1_0_0_1_n_n_wf : DotDims.WF S16000x36 S36x36 S16000x36 [1] [0] [0] [1] [] []
  dot_S16000x36_S36x1_S16000x1_1_0_0_1_n_n_wf : DotDims.WF S16000x36 S36x1 S16000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x36.size a ≤ S256x36.size a
  hwx0_2 : ∀ i : grid0.Coords, EltTy.bits .f32 = 32 ∨ (Rect.block (s := S256x36) S256x36.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x36.size a ≤ S50000x36.size a
  hwx0_3 : ∀ i : grid0.Coords, EltTy.bits .f32 = 32 ∨ (Rect.block (s := S50000x36) S5000x36.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x36.size a ≤ S50000x36.size a
  hwx1_0 : ∀ i : grid1.Coords, EltTy.bits .f32 = 32 ∨ (Rect.block (s := S50000x36) S5000x36.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S36x36.size a ≤ S36x36.size a
  hwx1_2 : ∀ i : grid1.Coords, EltTy.bits .f32 = 32 ∨ (Rect.block (s := S36x36) S36x36.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x36.size a ≤ S50000x36.size a
  hwx1_3 : ∀ i : grid1.Coords, EltTy.bits .f32 = 32 ∨ (Rect.block (s := S50000x36) S5000x36.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x72.size a ≤ S1600000x72.size a
  hwx2_0 : ∀ i : grid2.Coords, EltTy.bits .bf16 = 32 ∨ (Rect.block (s := S1600000x72) S16000x72.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S72x36.size a ≤ S72x36.size a
  hwx2_1 : ∀ i : grid2.Coords, EltTy.bits .bf16 = 32 ∨ (Rect.block (s := S72x36) S72x36.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x36.size a ≤ S1x36.size a
  hwx2_2 : ∀ i : grid2.Coords, EltTy.bits .f32 = 32 ∨ (Rect.block (s := S1x36) S1x36.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S36x36.size a ≤ S36x36.size a
  hwx2_3 : ∀ i : grid2.Coords, EltTy.bits .bf16 = 32 ∨ (Rect.block (s := S36x36) S36x36.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x36.size a ≤ S1x36.size a
  hwx2_4 : ∀ i : grid2.Coords, EltTy.bits .f32 = 32 ∨ (Rect.block (s := S1x36) S1x36.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S36x1.size a ≤ S36x1.size a
  hwx2_5 : ∀ i : grid2.Coords, EltTy.bits .bf16 = 32 ∨ (Rect.block (s := S36x1) S36x1.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S16000x1.size a ≤ S1600000x1.size a
  hwx2_6 : ∀ i : grid2.Coords, EltTy.bits .f32 = 32 ∨ (Rect.block (s := S1600000x1) S16000x1.size (cc2_transform_6 i) (hinb2_6 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x256_S256x36_S5000x36_1_0_0_1_n_n : DotDims S5000x256 S256x36 S5000x36 where
  lhsContracting := [1]
  rhsContracting := [0]
  lhsNonContracting := [0]
  rhsNonContracting := [1]
  lhsBatch := []
  rhsBatch := []
  wf := dot_S5000x256_S256x36_S5000x36_1_0_0_1_n_n_wf
def gather_S50000x36_S1600000x1_S1600000x36_1_0_n_n_0_1_136 : GatherDims S50000x36 S1600000x1 S1600000x36 where
  offsetDims := [1]
  collapsedSliceDims := [0]
  operandBatchingDims := []
  startIndicesBatchingDims := []
  startIndexMap := [0]
  indexVectorDim := 1
  sliceSizes := ![1, 36]
  wf := gather_S50000x36_S1600000x1_S1600000x36_1_0_n_n_0_1_136_wf
def scatter_S50000x36_S1600000x1_S1600000x36_1_0_0_1 : ScatterDims S50000x36 S1600000x1 S1600000x36 where
  updateWindowDims := [1]
  insertedWindowDims := [0]
  scatterDimsToOperandDims := [0]
  indexVectorDim := 1
  wf := scatter_S50000x36_S1600000x1_S1600000x36_1_0_0_1_wf
def dot_S5000x36_S36x36_S5000x36_1_0_0_1_n_n : DotDims S5000x36 S36x36 S5000x36 where
  lhsContracting := [1]
  rhsContracting := [0]
  lhsNonContracting := [0]
  rhsNonContracting := [1]
  lhsBatch := []
  rhsBatch := []
  wf := dot_S5000x36_S36x36_S5000x36_1_0_0_1_n_n_wf
def dot_S16000x72_S72x36_S16000x36_1_0_0_1_n_n : DotDims S16000x72 S72x36 S16000x36 where
  lhsContracting := [1]
  rhsContracting := [0]
  lhsNonContracting := [0]
  rhsNonContracting := [1]
  lhsBatch := []
  rhsBatch := []
  wf := dot_S16000x72_S72x36_S16000x36_1_0_0_1_n_n_wf
def dot_S16000x36_S36x36_S16000x36_1_0_0_1_n_n : DotDims S16000x36 S36x36 S16000x36 where
  lhsContracting := [1]
  rhsContracting := [0]
  lhsNonContracting := [0]
  rhsNonContracting := [1]
  lhsBatch := []
  rhsBatch := []
  wf := dot_S16000x36_S36x36_S16000x36_1_0_0_1_n_n_wf
def dot_S16000x36_S36x1_S16000x1_1_0_0_1_n_n : DotDims S16000x36 S36x1 S16000x1 where
  lhsContracting := [1]
  rhsContracting := [0]
  lhsNonContracting := [0]
  rhsNonContracting := [1]
  lhsBatch := []
  rhsBatch := []
  wf := dot_S16000x36_S36x1_S16000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x36.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x36.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x36.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S36x36.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S5000x36.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v65) S16000x72.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S72x36.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S1x36.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S36x36.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1x36.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S36x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71) S16000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x256 : Shape := ⟨2, ![50000, 256]⟩
abbrev S1600000 : Shape := ⟨1, ![1600000]⟩
abbrev S256x36 : Shape := ⟨2, ![256, 36]⟩
abbrev S36 : Shape := ⟨1, ![36]⟩
abbrev S36x36 : Shape := ⟨2, ![36, 36]⟩
abbrev S72x36 : Shape := ⟨2, ![72, 36]⟩
abbrev S36x1 : Shape := ⟨2, ![36, 1]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x36 : Shape := ⟨2, ![50000, 36]⟩
abbrev S1600000x36 : Shape := ⟨2, ![1600000, 36]⟩
abbrev S1x36 : Shape := ⟨2, ![1, 36]⟩
abbrev S1600000x72 : Shape := ⟨2, ![1600000, 72]⟩

abbrev nBuf : Space → Nat
  | .hbm => 129
  | .vmem => 0
  | .smem => 0
  | _ => 0

abbrev hbmTy0_0 (i : Nat) : BufTy := match i % 128 with
  | 0 => ⟨S50000x256, .f32⟩
  | 1 => ⟨S1600000, .i32⟩
  | 2 => ⟨S1600000, .i32⟩
  | 3 => ⟨S256x36, .f32⟩
  | 4 => ⟨S36, .f32⟩
  | 5 => ⟨S36x36, .f32⟩
  | 6 => ⟨S36, .f32⟩
  | 7 => ⟨S72x36, .f32⟩
  | 8 => ⟨S36, .f32⟩
  | 9 => ⟨S36x36, .f32⟩
  | 10 => ⟨S36, .f32⟩
  | 11 => ⟨S36x1, .f32⟩
  | 12 => ⟨S_, .f32⟩
  | 13 => ⟨S1600000, .f32⟩
  | 14 => ⟨S_, .f32⟩
  | 15 => ⟨S50000, .f32⟩
  | 16 => ⟨S1600000x1, .i32⟩
  | 17 => ⟨S50000, .f32⟩
  | 18 => ⟨S_, .f32⟩
  | 19 => ⟨S50000, .f32⟩
  | 20 => ⟨S1600000x1, .i32⟩
  | 21 => ⟨S50000, .f32⟩
  | 22 => ⟨S_, .f32⟩
  | 23 => ⟨S_, .f32⟩
  | 24 => ⟨S50000, .f32⟩
  | 25 => ⟨S50000, .f32⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x256, .f32⟩
  | 38 => ⟨S50000x256, .f32⟩
  | 39 => ⟨S50000x36, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x36, .f32⟩
  | 49 => ⟨S_, .f32⟩
  | 50 => ⟨S50000x36, .f32⟩
  | 51 => ⟨S1600000x1, .i32⟩
  | 52 => ⟨S50000x36, .f32⟩
  | 53 => ⟨S50000x1, .f32⟩
  | 54 => ⟨S50000x36, .f32⟩
  | 55 => ⟨S50000x36, .f32⟩
  | 56 => ⟨S1x36, .f32⟩
  | 57 => ⟨S50000x36, .f32⟩
  | 58 => ⟨S50000x36, .f32⟩
  | 59 => ⟨S_, .f32⟩
  | 60 => ⟨S50000x36, .f32⟩
  | 61 => ⟨S50000x36, .f32⟩
  | 62 => ⟨S50000x1, .f32⟩
  | 63 => ⟨S50000x36, .f32⟩
  | 64 => ⟨S50000x36, .f32⟩
  | 65 => ⟨S50000x36, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x36, .f32⟩
  | 75 => ⟨S_, .f32⟩
  | 76 => ⟨S50000x36, .f32⟩
  | 77 => ⟨S1600000x1, .i32⟩
  | 78 => ⟨S50000x36, .f32⟩
  | 79 => ⟨S50000x1, .f32⟩
  | 80 => ⟨S50000x36, .f32⟩
  | 81 => ⟨S50000x36, .f32⟩
  | 82 => ⟨S1x36, .f32⟩
  | 83 => ⟨S50000x36, .f32⟩
  | 84 => ⟨S50000x36, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x36, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x36, .f32⟩
  | 103 => ⟨S1600000x72, .f32⟩
  | 104 => ⟨S1600000x36, .f32⟩
  | 105 => ⟨S1x36, .f32⟩
  | 106 => ⟨S1600000x36, .f32⟩
  | 107 => ⟨S1600000x36, .f32⟩
  | 108 => ⟨S1600000x36, .f32⟩
  | 109 => ⟨S1600000x36, .f32⟩
  | 110 => ⟨S_, .f32⟩
  | 111 => ⟨S1600000x36, .f32⟩
  | 112 => ⟨S1600000x36, .f32⟩
  | 113 => ⟨S_, .f32⟩
  | 114 => ⟨S1600000x36, .f32⟩
  | 115 => ⟨S1600000x36, .f32⟩
  | 116 => ⟨S1600000x36, .f32⟩
  | 117 => ⟨S1x36, .f32⟩
  | 118 => ⟨S1600000x36, .f32⟩
  | 119 => ⟨S1600000x36, .f32⟩
  | 120 => ⟨S1600000x36, .f32⟩
  | 121 => ⟨S1600000x36, .f32⟩
  | 122 => ⟨S_, .f32⟩
  | 123 => ⟨S1600000x36, .f32⟩
  | 124 => ⟨S1600000x36, .f32⟩
  | 125 => ⟨S_, .f32⟩
  | 126 => ⟨S1600000x36, .f32⟩
  | 127 => ⟨S1600000x36, .f32⟩
  | _ => ⟨S50000x256, .f32⟩

abbrev hbmTy0_1 (i : Nat) : BufTy := match i % 128 with
  | 0 => ⟨S1600000x1, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v7 : Ref sig .tc := ⟨.hbm, 25, rfl⟩
abbrev main_cst_3 : Ref sig .tc := ⟨.hbm, 26, rfl⟩
abbrev main_v8 : Ref sig .tc := ⟨.hbm, 27, rfl⟩
abbrev main_v9 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v10 : Ref sig .tc := ⟨.hbm, 32, rfl⟩
abbrev main_cst_5 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_6 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_7 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call2_cst : Ref sig .tc := ⟨.hbm, 59, rfl⟩
abbrev main_call2_v0 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_8 : Ref sig .tc := ⟨.hbm, 66, rfl⟩
abbrev main_v38 : Ref sig .tc := ⟨.hbm, 67, rfl⟩
abbrev main_v39 : Ref sig .tc := ⟨.hbm, 68, rfl⟩
abbrev main_c_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_11 : Ref sig .tc := ⟨.hbm, 85, rfl⟩
abbrev main_v54 : Ref sig .tc := ⟨.hbm, 86, rfl⟩
abbrev main_v55 : Ref sig .tc := ⟨.hbm, 87, rfl⟩
abbrev main_c_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_13 : Ref sig .tc := ⟨.hbm, 94, rfl⟩
abbrev main_v61 : Ref sig .tc := ⟨.hbm, 95, rfl⟩
abbrev main_v62 : Ref sig .tc := ⟨.hbm, 96, rfl⟩
abbrev main_c_14 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_17 : Ref sig .tc := ⟨.hbm, 122, rfl⟩
abbrev main_v85 : Ref sig .tc := ⟨.hbm, 123, rfl⟩
abbrev main_v86 : Ref sig .tc := ⟨.hbm, 124, rfl⟩
abbrev main_cst_18 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x36 : S_.BroadcastsInDim S50000x36 (![] : Fin 0 → Fin S50000x36.rank)
  bcast_S50000x1_S50000x36_0_1 : S50000x1.BroadcastsInDim S50000x36 (![0, 1] : Fin 2 → Fin S50000x36.rank)
  bcast_S36_S1x36_1 : S36.BroadcastsInDim S1x36 (![1] : Fin 1 → Fin S1x36.rank)
  bcast_S1x36_S50000x36_0_1 : S1x36.BroadcastsInDim S50000x36 (![0, 1] : Fin 2 → Fin S50000x36.rank)
  concatenates_S1600000x36_S1600000x36_S1600000x72_d1 : Shape.Concatenates [S1600000x36, S1600000x36] S1600000x72 1
  bcast_S1x36_S1600000x36_0_1 : S1x36.BroadcastsInDim S1600000x36 (![0, 1] : Fin 2 → Fin S1600000x36.rank)
  bcast_S_S1600000x36 : S_.BroadcastsInDim S1600000x36 (![] : Fin 0 → Fin S1600000x36.rank)
  scatter_S50000_S1600000x1_S1600000_n_0_0_1_wf : ScatterDims.WF S50000 S1600000x1 S1600000 [] [0] [0] 1
  dot_S50000x256_S256x36_S50000x36_1_0_0_1_n_n_wf : DotDims.WF S50000x256 S256x36 S50000x36 [1] [0] [0] [1] [] []
  gather_S50000x36_S1600000x1_S1600000x36_1_0_n_n_0_1_136_wf : GatherDims.WF S50000x36 S1600000x1 S1600000x36 [1] [0] [] [0] [] 1 ![1, 36]
  scatter_S50000x36_S1600000x1_S1600000x36_1_0_0_1_wf : ScatterDims.WF S50000x36 S1600000x1 S1600000x36 [1] [0] [0] 1
  dot_S50000x36_S36x36_S50000x36_1_0_0_1_n_n_wf : DotDims.WF S50000x36 S36x36 S50000x36 [1] [0] [0] [1] [] []
  dot_S1600000x72_S72x36_S1600000x36_1_0_0_1_n_n_wf : DotDims.WF S1600000x72 S72x36 S1600000x36 [1] [0] [0] [1] [] []
  dot_S1600000x36_S36x36_S1600000x36_1_0_0_1_n_n_wf : DotDims.WF S1600000x36 S36x36 S1600000x36 [1] [0] [0] [1] [] []
  dot_S1600000x36_S36x1_S1600000x1_1_0_0_1_n_n_wf : DotDims.WF S1600000x36 S36x1 S1600000x1 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x256_S256x36_S50000x36_1_0_0_1_n_n : DotDims S50000x256 S256x36 S50000x36 where
  lhsContracting := [1]
  rhsContracting := [0]
  lhsNonContracting := [0]
  rhsNonContracting := [1]
  lhsBatch := []
  rhsBatch := []
  wf := dot_S50000x256_S256x36_S50000x36_1_0_0_1_n_n_wf
def gather_S50000x36_S1600000x1_S1600000x36_1_0_n_n_0_1_136 : GatherDims S50000x36 S1600000x1 S1600000x36 where
  offsetDims := [1]
  collapsedSliceDims := [0]
  operandBatchingDims := []
  startIndicesBatchingDims := []
  startIndexMap := [0]
  indexVectorDim := 1
  sliceSizes := ![1, 36]
  wf := gather_S50000x36_S1600000x1_S1600000x36_1_0_n_n_0_1_136_wf
def scatter_S50000x36_S1600000x1_S1600000x36_1_0_0_1 : ScatterDims S50000x36 S1600000x1 S1600000x36 where
  updateWindowDims := [1]
  insertedWindowDims := [0]
  scatterDimsToOperandDims := [0]
  indexVectorDim := 1
  wf := scatter_S50000x36_S1600000x1_S1600000x36_1_0_0_1_wf
def dot_S50000x36_S36x36_S50000x36_1_0_0_1_n_n : DotDims S50000x36 S36x36 S50000x36 where
  lhsContracting := [1]
  rhsContracting := [0]
  lhsNonContracting := [0]
  rhsNonContracting := [1]
  lhsBatch := []
  rhsBatch := []
  wf := dot_S50000x36_S36x36_S50000x36_1_0_0_1_n_n_wf
def dot_S1600000x72_S72x36_S1600000x36_1_0_0_1_n_n : DotDims S1600000x72 S72x36 S1600000x36 where
  lhsContracting := [1]
  rhsContracting := [0]
  lhsNonContracting := [0]
  rhsNonContracting := [1]
  lhsBatch := []
  rhsBatch := []
  wf := dot_S1600000x72_S72x36_S1600000x36_1_0_0_1_n_n_wf
def dot_S1600000x36_S36x36_S1600000x36_1_0_0_1_n_n : DotDims S1600000x36 S36x36 S1600000x36 where
  lhsContracting := [1]
  rhsContracting := [0]
  lhsNonContracting := [0]
  rhsNonContracting := [1]
  lhsBatch := []
  rhsBatch := []
  wf := dot_S1600000x36_S36x36_S1600000x36_1_0_0_1_n_n_wf
def dot_S1600000x36_S36x1_S1600000x1_1_0_0_1_n_n : DotDims S1600000x36 S36x1 S1600000x1 where
  lhsContracting := [1]
  rhsContracting := [0]
  lhsNonContracting := [0]
  rhsNonContracting := [1]
  lhsBatch := []
  rhsBatch := []
  wf := dot_S1600000x36_S36x1_S1600000x1_1_0_0_1_n_n_wf

class Facts : Prop extends Facts₀ where

variable [Facts]
-- ==== Proof.KernelRun.lean ====
/-
  The idealized kernel's whole run with its result named.

  Every weakly fair execution of @main — five stretches of host operations, the first scale-and-multiply
  pipeline, three more stretches, the second pipeline, one long stretch, the edge pipeline — terminates without a
  fault, the argument arrays unchanged, and the result array holds what the edge pipeline's write-backs leave:
  the fold of its 100 output blocks over the contents the region was entered with. The buffer contents at each
  boundary between segments are the generated fold `Gen.W0 … Gen.W12`; the last thread state holds every
  unscoped buffer at `Gen.W12`, which at the result's reference is the pipeline's final array.
-/
import proofs.«144550_j21406117004231_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result array at the edge pipeline's final array and every argument as launched. -/
theorem run : θ_run defs (onTc (τ := τ) (main (F := F))) ⟨m, fun _ => 0, ρ⟩ (fun r => ∀ c : Dev nD,
      r.2.mem ((c.tc : Thread nD τ).loc main_v71) = (dat2 (V11 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨(h c _ (mem_uc main_v71 (by decide))).trans (W12_arr m ρ c 6),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.RunValue

end
-- ==== Proof.HostStages.lean ====
/-
  The host operations of the kernel's @main, stretch by stretch, read against the reference's stages.

  The kernel's program and the reference apply the same host operations around their matrix products: the
  degree counts (a scatter-add of ones), their clipped inverse square roots, the gathers of source rows, the
  scatter-adds into destination rows, the scaling by the destinations' norms, the biases, the rectifier, and
  the concatenation of the gathered pairs. Each lemma takes an arbitrary valuation `W` of the buffers at the
  start of a run of stretches, and says what one buffer holds after them: the reference's stage function of
  what `W` holds at the buffers the stretch reads. The matrix products themselves never appear: what a
  pipeline left in its result buffer enters as a hypothesis. Nothing here looks inside a gather or a scatter.

  A change of float format is the identity on the extended reals, so the kernel's casts to bf16 drop out, and a
  vector reshaped to one row is that vector repeated into one row.
-/
import proofs.«144550_j21406117004231_2_alg».proof.Proof.Gen.KernelIdeal.Launch
import proofs.«144550_j21406117004231_2_alg».proof.Proof.Gen.ReferenceIdeal.Read
import Idealize.ShloMosaic.Lib.StableHlo.Run
import Idealize.ShloMosaic.Lib.ValueLayout
import Idealize.ShloMosaic.Lib.ValueIdx

set_option maxRecDepth 16384

noncomputable section

namespace Cert.Bridge

open Idealize.ShloMosaic Idealize.ShloMosaic.StableHlo Idealize.ShloMosaic.ValueIdx
open Cert.KernelIdeal Cert.KernelIdeal.Gen

/-- The contents of the kernel program's buffers on one device. -/
abbrev Val := Valuation Cert.KernelIdeal.τ Cert.KernelIdeal.sig (Elt Ideal)

/-- A vector given a leading unit axis is the vector repeated into one row. -/
theorem row_of_vector (x : S36.Idx → EReal) (h : S36.ShapeCasts S1x36)
    (h' : Cert.ReferenceIdeal.S36.BroadcastsInDim Cert.ReferenceIdeal.S1x36 (![1] : Fin 1 → Fin Cert.ReferenceIdeal.S1x36.rank)) :
    shapeCast S1x36 x h = broadcastInDim Cert.ReferenceIdeal.S1x36 ![1] h' x := by
  funext i
  obtain ⟨u, j, rfl⟩ : ∃ (u : Fin 1) (j : Fin 36), i = ix2 u j := ⟨i 0, i 1, eq_ix2 i⟩
  refine (shapeCast_a_1a_apply x _ u j).trans ?_
  refine (broadcastInDim_apply _ h' x (ix2 u j) (ix1 j) (fun a => ?_)).symm
  match a with
  | ⟨0, _⟩ => show j.val = if (36 : Nat) = 1 then 0 else j.val; rw [if_neg (by decide)]

/-! ## Values written and read through an outlined call's typed references

An outlined call (clip, relu) reads and writes its operands through typed references: a transport along the
buffer's type equation, which for a literal reference is the identity. One equation per reference and direction. -/

theorem toBuf_main_cst_2 (v : FVec Ideal S_ .f32) :
    ((TRef.of (sig := sig) (T := ⟨S_, .f32⟩) main_cst_2).toBuf (Val := Elt Ideal) v : S_.Idx → EReal) = v := rfl
theorem ofBuf_main_cst_2 (v : FVec Ideal S_ .f32) :
    ((TRef.of (sig := sig) (T := ⟨S_, .f32⟩) main_cst_2).ofBuf (Val := Elt Ideal) v : S_.Idx → EReal) = v := rfl
theorem toBuf_main_call0_v0 (v : FVec Ideal S_ .f32) :
    ((TRef.of (sig := sig) (T := ⟨S_, .f32⟩) main_call0_v0).toBuf (Val := Elt Ideal) v : S_.Idx → EReal) = v := rfl
theorem ofBuf_main_call0_v0 (v : FVec Ideal S_ .f32) :
    ((TRef.of (sig := sig) (T := ⟨S_, .f32⟩) main_call0_v0).ofBuf (Val := Elt Ideal) v : S_.Idx → EReal) = v := rfl
theorem toBuf_main_call0_v1 (v : FVec Ideal S50000 .f32) :
    ((TRef.of (sig := sig) (T := ⟨S50000, .f32⟩) main_call0_v1).toBuf (Val := Elt Ideal) v : S50000.Idx → EReal) = v := rfl
theorem ofBuf_main_call0_v1 (v : FVec Ideal S50000 .f32) :
    ((TRef.of (sig := sig) (T := ⟨S50000, .f32⟩) main_call0_v1).ofBuf (Val := Elt Ideal) v : S50000.Idx → EReal) = v := rfl
theorem toBuf_main_v3 (v : FVec Ideal S50000 .f32) :
    ((TRef.of (sig := sig) (T := ⟨S50000, .f32⟩) main_v3).toBuf (Val := Elt Ideal) v : S50000.Idx → EReal) = v := rfl
theorem ofBuf_main_v3 (v : FVec Ideal S50000 .f32) :
    ((TRef.of (sig := sig) (T := ⟨S50000, .f32⟩) main_v3).ofBuf (Val := Elt Ideal) v : S50000.Idx → EReal) = v := rfl
theorem toBuf_main_v7 (v : FVec Ideal S50000 .f32) :
    ((TRef.of (sig := sig) (T := ⟨S50000, .f32⟩) main_v7).toBuf (Val := Elt Ideal) v : S50000.Idx → EReal) = v := rfl
theorem ofBuf_main_v7 (v : FVec Ideal S50000 .f32) :
    ((TRef.of (sig := sig) (T := ⟨S50000, .f32⟩) main_v7).ofBuf (Val := Elt Ideal) v : S50000.Idx → EReal) = v := rfl
theorem toBuf_main_cst_4 (v : FVec Ideal S_ .f32) :
    ((TRef.of (sig := sig) (T := ⟨S_, .f32⟩) main_cst_4).toBuf (Val := Elt Ideal) v : S_.Idx → EReal) = v := rfl
theorem ofBuf_main_cst_4 (v : FVec Ideal S_ .f32) :
    ((TRef.of (sig := sig) (T := ⟨S_, .f32⟩) main_cst_4).ofBuf (Val := Elt Ideal) v : S_.Idx → EReal) = v := rfl
theorem toBuf_main_call1_v0 (v : FVec Ideal S_ .f32) :
    ((TRef.of (sig := sig) (T := ⟨S_, .f32⟩) main_call1_v0).toBuf (Val := Elt Ideal) v : S_.Idx → EReal) = v := rfl
theorem ofBuf_main_call1_v0 (v : FVec Ideal S_ .f32) :
    ((TRef.of (sig := sig) (T := ⟨S_, .f32⟩) main_call1_v0).ofBuf (Val := Elt Ideal) v : S_.Idx → EReal) = v := rfl
theorem toBuf_main_call1_v1 (v : FVec Ideal S50000 .f32) :
    ((TRef.of (sig := sig) (T := ⟨S50000, .f32⟩) main_call1_v1).toBuf (Val := Elt Ideal) v : S50000.Idx → EReal) = v := rfl
theorem ofBuf_main_call1_v1 (v : FVec Ideal S50000 .f32) :
    ((TRef.of (sig := sig) (T := ⟨S50000, .f32⟩) main_call1_v1).ofBuf (Val := Elt Ideal) v : S50000.Idx → EReal) = v := rfl
theorem toBuf_main_v6 (v : FVec Ideal S50000 .f32) :
    ((TRef.of (sig := sig) (T := ⟨S50000, .f32⟩) main_v6).toBuf (Val := Elt Ideal) v : S50000.Idx → EReal) = v := rfl
theorem ofBuf_main_v6 (v : FVec Ideal S50000 .f32) :
    ((TRef.of (sig := sig) (T := ⟨S50000, .f32⟩) main_v6).ofBuf (Val := Elt Ideal) v : S50000.Idx → EReal) = v := rfl
theorem toBuf_main_v10 (v : FVec Ideal S50000 .f32) :
    ((TRef.of (sig := sig) (T := ⟨S50000, .f32⟩) main_v10).toBuf (Val := Elt Ideal) v : S50000.Idx → EReal) = v := rfl
theorem ofBuf_main_v10 (v : FVec Ideal S50000 .f32) :
    ((TRef.of (sig := sig) (T := ⟨S50000, .f32⟩) main_v10).ofBuf (Val := Elt Ideal) v : S50000.Idx → EReal) = v := rfl
theorem toBuf_main_call2_cst (v : FVec Ideal S_ .f32) :
    ((TRef.of (sig := sig) (T := ⟨S_, .f32⟩) main_call2_cst).toBuf (Val := Elt Ideal) v : S_.Idx → EReal) = v := rfl
theorem ofBuf_main_call2_cst (v : FVec Ideal S_ .f32) :
    ((TRef.of (sig := sig) (T := ⟨S_, .f32⟩) main_call2_cst).ofBuf (Val := Elt Ideal) v : S_.Idx → EReal) = v := rfl
theorem toBuf_main_call2_v0 (v : FVec Ideal S50000x36 .f32) :
    ((TRef.of (sig := sig) (T := ⟨S50000x36, .f32⟩) main_call2_v0).toBuf (Val := Elt Ideal) v : S50000x36.Idx → EReal) = v := rfl
theorem ofBuf_main_call2_v0 (v : FVec Ideal S50000x36 .f32) :
    ((TRef.of (sig := sig) (T := ⟨S50000x36, .f32⟩) main_call2_v0).ofBuf (Val := Elt Ideal) v : S50000x36.Idx → EReal) = v := rfl
theorem toBuf_main_v30 (v : FVec Ideal S50000x36 .f32) :
    ((TRef.of (sig := sig) (T := ⟨S50000x36, .f32⟩) main_v30).toBuf (Val := Elt Ideal) v : S50000x36.Idx → EReal) = v := rfl
theorem ofBuf_main_v30 (v : FVec Ideal S50000x36 .f32) :
    ((TRef.of (sig := sig) (T := ⟨S50000x36, .f32⟩) main_v30).ofBuf (Val := Elt Ideal) v : S50000x36.Idx → EReal) = v := rfl
theorem toBuf_main_v31 (v : FVec Ideal S50000x36 .f32) :
    ((TRef.of (sig := sig) (T := ⟨S50000x36, .f32⟩) main_v31).toBuf (Val := Elt Ideal) v : S50000x36.Idx → EReal) = v := rfl
theorem ofBuf_main_v31 (v : FVec Ideal S50000x36 .f32) :
    ((TRef.of (sig := sig) (T := ⟨S50000x36, .f32⟩) main_v31).ofBuf (Val := Elt Ideal) v : S50000x36.Idx → EReal) = v := rfl

/-! ## Before the first pipeline: the degree norms -/

/-- The five stretches before the first pipeline. -/
abbrev before0 (W : Val) : Val :=
  after hostOps0_4 (after hostOps0_3 (after hostOps0_2 (after hostOps0_1 (after hostOps0 W))))

theorem before0_v9 (W : Val) :
    (before0 W (Proc.devRef .tc main_v9) : S50000.Idx → EReal)
      = Cert.ReferenceIdeal.Read.val_main_v9 (F := Ideal) (W (Proc.devRef .tc main_arg1)) := by
  after_results_simp
  repeat (first | rw [toBuf_main_cst_2] | rw [ofBuf_main_cst_2] | rw [toBuf_main_call0_v0] | rw [ofBuf_main_call0_v0] | rw [toBuf_main_call0_v1] | rw [ofBuf_main_call0_v1] | rw [toBuf_main_v3] | rw [ofBuf_main_v3] | rw [toBuf_main_v7] | rw [ofBuf_main_v7] | rw [toBuf_main_cst_4] | rw [ofBuf_main_cst_4] | rw [toBuf_main_call1_v0] | rw [ofBuf_main_call1_v0] | rw [toBuf_main_call1_v1] | rw [ofBuf_main_call1_v1] | rw [toBuf_main_v6] | rw [ofBuf_main_v6] | rw [toBuf_main_v10] | rw [ofBuf_main_v10] | rw [toBuf_main_call2_cst] | rw [ofBuf_main_call2_cst] | rw [toBuf_main_call2_v0] | rw [ofBuf_main_call2_v0] | rw [toBuf_main_v30] | rw [ofBuf_main_v30] | rw [toBuf_main_v31] | rw [ofBuf_main_v31])
  rfl

theorem before0_v12 (W : Val) :
    (before0 W (Proc.devRef .tc main_v12) : S50000.Idx → EReal)
      = Cert.ReferenceIdeal.Read.val_main_v12 (F := Ideal) (W (Proc.devRef .tc main_arg2)) := by
  after_results_simp
  repeat (first | rw [toBuf_main_cst_2] | rw [ofBuf_main_cst_2] | rw [toBuf_main_call0_v0] | rw [ofBuf_main_call0_v0] | rw [toBuf_main_call0_v1] | rw [ofBuf_main_call0_v1] | rw [toBuf_main_v3] | rw [ofBuf_main_v3] | rw [toBuf_main_v7] | rw [ofBuf_main_v7] | rw [toBuf_main_cst_4] | rw [ofBuf_main_cst_4] | rw [toBuf_main_call1_v0] | rw [ofBuf_main_call1_v0] | rw [toBuf_main_call1_v1] | rw [ofBuf_main_call1_v1] | rw [toBuf_main_v6] | rw [ofBuf_main_v6] | rw [toBuf_main_v10] | rw [ofBuf_main_v10] | rw [toBuf_main_call2_cst] | rw [ofBuf_main_call2_cst] | rw [toBuf_main_call2_v0] | rw [ofBuf_main_call2_v0] | rw [toBuf_main_v30] | rw [ofBuf_main_v30] | rw [toBuf_main_v31] | rw [ofBuf_main_v31])
  rfl

theorem before0_v13 (W : Val) :
    (before0 W (Proc.devRef .tc main_v13) : S50000x1.Idx → EReal)
      = Cert.ReferenceIdeal.Read.val_main_v13 (F := Ideal) (W (Proc.devRef .tc main_arg1)) := by
  after_results_simp
  repeat (first | rw [toBuf_main_cst_2] | rw [ofBuf_main_cst_2] | rw [toBuf_main_call0_v0] | rw [ofBuf_main_call0_v0] | rw [toBuf_main_call0_v1] | rw [ofBuf_main_call0_v1] | rw [toBuf_main_v3] | rw [ofBuf_main_v3] | rw [toBuf_main_v7] | rw [ofBuf_main_v7] | rw [toBuf_main_cst_4] | rw [ofBuf_main_cst_4] | rw [toBuf_main_call1_v0] | rw [ofBuf_main_call1_v0] | rw [toBuf_main_call1_v1] | rw [ofBuf_main_call1_v1] | rw [toBuf_main_v6] | rw [ofBuf_main_v6] | rw [toBuf_main_v10] | rw [ofBuf_main_v10] | rw [toBuf_main_call2_cst] | rw [ofBuf_main_call2_cst] | rw [toBuf_main_call2_v0] | rw [ofBuf_main_call2_v0] | rw [toBuf_main_v30] | rw [ofBuf_main_v30] | rw [toBuf_main_v31] | rw [ofBuf_main_v31])
  rfl

theorem before0_arg0 (W : Val) : before0 W (Proc.devRef .tc main_arg0) = W (Proc.devRef .tc main_arg0) := by
  after_results_simp
theorem before0_arg1 (W : Val) : before0 W (Proc.devRef .tc main_arg1) = W (Proc.devRef .tc main_arg1) := by
  after_results_simp
theorem before0_arg2 (W : Val) : before0 W (Proc.devRef .tc main_arg2) = W (Proc.devRef .tc main_arg2) := by
  after_results_simp
theorem before0_arg3 (W : Val) : before0 W (Proc.devRef .tc main_arg3) = W (Proc.devRef .tc main_arg3) := by
  after_results_simp
theorem before0_arg4 (W : Val) : before0 W (Proc.devRef .tc main_arg4) = W (Proc.devRef .tc main_arg4) := by
  after_results_simp
theorem before0_arg5 (W : Val) : before0 W (Proc.devRef .tc main_arg5) = W (Proc.devRef .tc main_arg5) := by
  after_results_simp

/-! ## Between the first and the second pipeline: aggregate, normalise, bias, rectify -/

/-- The three stretches between the first and the second pipeline. -/
abbrev before1 (W : Val) : Val := after hostOps1_2 (after hostOps1_1 (after hostOps1 W))

/-- The rectified first layer, given that the first pipeline's result buffer holds the reference's first product. -/
theorem before1_v31 (W : Val) (x0 : (⟨Cert.ReferenceIdeal.S50000x256, .f32⟩ : BufTy).Contents (Elt Ideal)) (x1 x2 : (⟨Cert.ReferenceIdeal.S1600000, .i32⟩ : BufTy).Contents (Elt Ideal))
    (x3 : (⟨Cert.ReferenceIdeal.S256x36, .f32⟩ : BufTy).Contents (Elt Ideal)) (x4 : (⟨Cert.ReferenceIdeal.S36, .f32⟩ : BufTy).Contents (Elt Ideal))
    (h14 : (W (Proc.devRef .tc main_v14) : S50000x36.Idx → EReal) = Cert.ReferenceIdeal.Read.val_main_v16 (F := Ideal) x0 x1 x3)
    (h12 : (W (Proc.devRef .tc main_v12) : S50000.Idx → EReal) = Cert.ReferenceIdeal.Read.val_main_v12 (F := Ideal) x2)
    (h1 : W (Proc.devRef .tc main_arg1) = x1) (h2 : W (Proc.devRef .tc main_arg2) = x2)
    (h4 : W (Proc.devRef .tc main_arg4) = x4) :
    (before1 W (Proc.devRef .tc main_v31) : S50000x36.Idx → EReal)
      = Cert.ReferenceIdeal.Read.val_main_v33 (F := Ideal) x0 x1 x2 x3 x4 := by
  after_results_simp
  repeat (first | rw [toBuf_main_cst_2] | rw [ofBuf_main_cst_2] | rw [toBuf_main_call0_v0] | rw [ofBuf_main_call0_v0] | rw [toBuf_main_call0_v1] | rw [ofBuf_main_call0_v1] | rw [toBuf_main_v3] | rw [ofBuf_main_v3] | rw [toBuf_main_v7] | rw [ofBuf_main_v7] | rw [toBuf_main_cst_4] | rw [ofBuf_main_cst_4] | rw [toBuf_main_call1_v0] | rw [ofBuf_main_call1_v0] | rw [toBuf_main_call1_v1] | rw [ofBuf_main_call1_v1] | rw [toBuf_main_v6] | rw [ofBuf_main_v6] | rw [toBuf_main_v10] | rw [ofBuf_main_v10] | rw [toBuf_main_call2_cst] | rw [ofBuf_main_call2_cst] | rw [toBuf_main_call2_v0] | rw [ofBuf_main_call2_v0] | rw [toBuf_main_v30] | rw [ofBuf_main_v30] | rw [toBuf_main_v31] | rw [ofBuf_main_v31])
  rw [h14, h12, h1, h2, h4]
  rfl

/-- The sources' norms as a column, again. -/
theorem before1_v32 (W : Val) (x1 : (⟨Cert.ReferenceIdeal.S1600000, .i32⟩ : BufTy).Contents (Elt Ideal))
    (h9 : (W (Proc.devRef .tc main_v9) : S50000.Idx → EReal) = Cert.ReferenceIdeal.Read.val_main_v9 (F := Ideal) x1) :
    (before1 W (Proc.devRef .tc main_v32) : S50000x1.Idx → EReal) = Cert.ReferenceIdeal.Read.val_main_v34 (F := Ideal) x1 := by
  after_results_simp
  rw [h9]
  rfl

theorem before1_arg5 (W : Val) : before1 W (Proc.devRef .tc main_arg5) = W (Proc.devRef .tc main_arg5) := by
  after_results_simp
theorem before1_v12 (W : Val) : before1 W (Proc.devRef .tc main_v12) = W (Proc.devRef .tc main_v12) := by
  after_results_simp

end Cert.Bridge

end
-- ==== Proof.HostStages2.lean ====
/-
  The long stretch of host operations between the second pipeline and the edge pipeline, read against the
  reference's stages: the second layer's output (aggregate, normalise, add the bias), its rows gathered at every
  edge's source and destination and laid side by side, the three weight arrays cast to a narrower format (the
  identity on the extended reals) and the two biases reshaped to one row (the bias repeated into one row).
-/
import proofs.«144550_j21406117004231_2_alg».proof.Proof.HostStages

set_option maxRecDepth 16384

noncomputable section

namespace Cert.Bridge

open Idealize.ShloMosaic Idealize.ShloMosaic.StableHlo Idealize.ShloMosaic.ValueIdx
open Cert.KernelIdeal Cert.KernelIdeal.Gen

/-! ## Between the second pipeline and the edge pipeline: the second layer's output, gathered in pairs -/

/-- A change of float format is the identity on the extended reals. -/
theorem narrowed (x : FVec Ideal S50000x36 .f32) (h : FTy.bf16.bits < FTy.f32.bits) :
    (truncf .bf16 x h : S50000x36.Idx → EReal) = x := rfl

/-- Two arrays laid side by side depend on the two arrays only. -/
theorem pair_congr {α : Type} (a a' b b' : S1600000x36.Idx → α) (ha : a = a') (hb : b = b')
    (h : Shape.Concatenates ([(⟨S1600000x36, a⟩ : (s : Shape) × (s.Idx → α)), ⟨S1600000x36, b⟩].map (·.1)) S1600000x72 1) :
    concatenate S1600000x72 1 [⟨S1600000x36, a⟩, ⟨S1600000x36, b⟩] h
      = concatenate S1600000x72 1 [⟨S1600000x36, a'⟩, ⟨S1600000x36, b'⟩] (by subst ha hb; exact h) := by
  subst ha hb; rfl

/-- The gathered pairs, given that the second pipeline's result buffer holds the reference's second product. -/
theorem before2_v65 (W : Val) (x0 : (⟨Cert.ReferenceIdeal.S50000x256, .f32⟩ : BufTy).Contents (Elt Ideal)) (x1 x2 : (⟨Cert.ReferenceIdeal.S1600000, .i32⟩ : BufTy).Contents (Elt Ideal))
    (x3 : (⟨Cert.ReferenceIdeal.S256x36, .f32⟩ : BufTy).Contents (Elt Ideal)) (x4 : (⟨Cert.ReferenceIdeal.S36, .f32⟩ : BufTy).Contents (Elt Ideal)) (x5 : (⟨Cert.ReferenceIdeal.S36x36, .f32⟩ : BufTy).Contents (Elt Ideal)) (x6 : (⟨Cert.ReferenceIdeal.S36, .f32⟩ : BufTy).Contents (Elt Ideal))
    (h33 : (W (Proc.devRef .tc main_v33) : S50000x36.Idx → EReal) = Cert.ReferenceIdeal.Read.val_main_v37 (F := Ideal) x0 x1 x2 x3 x4 x5)
    (h12 : (W (Proc.devRef .tc main_v12) : S50000.Idx → EReal) = Cert.ReferenceIdeal.Read.val_main_v12 (F := Ideal) x2)
    (h1 : W (Proc.devRef .tc main_arg1) = x1) (h2 : W (Proc.devRef .tc main_arg2) = x2)
    (h6 : W (Proc.devRef .tc main_arg6) = x6) :
    (after hostOps2 W (Proc.devRef .tc main_v65) : S1600000x72.Idx → EReal)
      = Cert.ReferenceIdeal.Read.val_main_v68 (F := Ideal) x0 x1 x2 x3 x4 x5 x6 := by
  after_results_simp
  refine (pair_congr _ (Cert.ReferenceIdeal.Read.val_main_v60 (F := Ideal) x0 x1 x2 x3 x4 x5 x6) _
    (Cert.ReferenceIdeal.Read.val_main_v67 (F := Ideal) x0 x1 x2 x3 x4 x5 x6) ?_ ?_ _).trans ?_
  · after_results_simp
    rw [h33, h12, h1, h2, h6, narrowed]
    rfl
  · after_results_simp
    rw [h33, h12, h1, h2, h6, narrowed]
    rfl
  · rfl

/-- The three weight arrays cast to bf16 are the weight arrays. -/
theorem before2_v66 (W : Val) : (after hostOps2 W (Proc.devRef .tc main_v66) : S72x36.Idx → EReal) = W (Proc.devRef .tc main_arg7) := by
  after_results_simp
  rfl
theorem before2_v67 (W : Val) : (after hostOps2 W (Proc.devRef .tc main_v67) : S36x36.Idx → EReal) = W (Proc.devRef .tc main_arg9) := by
  after_results_simp
  rfl
theorem before2_v68 (W : Val) : (after hostOps2 W (Proc.devRef .tc main_v68) : S36x1.Idx → EReal) = W (Proc.devRef .tc main_arg11) := by
  after_results_simp
  rfl

/-- The two biases reshaped to one row are the reference's one-row broadcasts. -/
theorem before2_v69 (W : Val) : (after hostOps2 W (Proc.devRef .tc main_v69) : S1x36.Idx → EReal)
    = Cert.ReferenceIdeal.Read.val_main_v70 (F := Ideal) (W (Proc.devRef .tc main_arg8)) := by
  after_results_simp
  exact row_of_vector _ _ _
theorem before2_v70 (W : Val) : (after hostOps2 W (Proc.devRef .tc main_v70) : S1x36.Idx → EReal)
    = Cert.ReferenceIdeal.Read.val_main_v80 (F := Ideal) (W (Proc.devRef .tc main_arg10)) := by
  after_results_simp
  exact row_of_vector _ _ _

set_option maxHeartbeats 8000000 in
theorem before2_arg (W : Val) (b : Ref sig .tc)
    (hb : b = main_arg0 ∨ b = main_arg1 ∨ b = main_arg2 ∨ b = main_arg3 ∨ b = main_arg4 ∨ b = main_arg5 ∨ b = main_arg6
      ∨ b = main_arg7 ∨ b = main_arg8 ∨ b = main_arg9 ∨ b = main_arg10 ∨ b = main_arg11) :
    after hostOps2 W (Proc.devRef .tc b) = W (Proc.devRef .tc b) := by
  rcases hb with h | h | h | h | h | h | h | h | h | h | h | h <;> subst h <;> after_results_simp

end Cert.Bridge

end
-- ==== Proof.Spec.lean ====
/-
  What the three kernels of this program compute, as functions of whole arrays on the extended reals.

  * `scaledTimes x n w`: the rows of `x` ([M, K]) each multiplied by that row's entry of the one-column array `n`
    ([M, 1]), then the product with `w` ([K, N]): at (r, j) the sum over k of (x (r, k) · n (r, 0)) · w (k, j).
    This is one graph-convolution layer's "normalise the sources, then apply the weight".
  * `mlpRow row w1 b1 w2 b2 w3 d`: a three-layer perceptron applied to one row of A features —
    σ (row · w1 + b1), then σ (· w2 + b2), then · w3 — read at output coordinate `d`, with σ the logistic function
    1 / (1 + e^(-x)) of the extended reals (0 at −∞, 1 at +∞).
  * `edgeScores p …`: that perceptron applied to every row of `p` ([E, A]).

  Both are stated by their sums, so that a block of rows of the result depends only on the same rows of the first
  operand: a result computed one block of rows at a time is the whole result.
-/
import Idealize.ShloMosaic.PureOps.Ideal.Laws
import Idealize.ShloMosaic.Lib.ValueIdx

noncomputable section

namespace Cert.Graph

open Idealize.ShloMosaic Idealize.ShloMosaic.ValueIdx

/-- `((x scaled row by row by n) · w) (r, j) = ∑ k, (x (r, k) · n (r, 0)) · w (k, j)`. -/
def scaledTimes {M K N : Nat} (x : (⟨2, ![M, K]⟩ : Shape).Idx → EReal) (n : (⟨2, ![M, 1]⟩ : Shape).Idx → EReal)
    (w : (⟨2, ![K, N]⟩ : Shape).Idx → EReal) : (⟨2, ![M, N]⟩ : Shape).Idx → EReal :=
  fun i => ∑ k : Fin K, (x (ix2 (i 0 : Fin M) k) * n (ix2 (i 0 : Fin M) (0 : Fin 1))) * w (ix2 k (i 1 : Fin N))

/-- One hidden layer read at unit `j`: σ (∑ l, row l · w (l, j) + b (0, j)). -/
def hidden {A B : Nat} (row : Fin A → EReal) (w : (⟨2, ![A, B]⟩ : Shape).Idx → EReal)
    (b : (⟨2, ![1, B]⟩ : Shape).Idx → EReal) (j : Fin B) : EReal :=
  Ideal.logistic ((∑ l : Fin A, row l * w (ix2 l j)) + b (ix2 (0 : Fin 1) j))

/-- The perceptron on one row: two hidden layers, then the output weights, at output coordinate `d`. -/
def mlpRow {A B C D : Nat} (row : Fin A → EReal) (w1 : (⟨2, ![A, B]⟩ : Shape).Idx → EReal)
    (b1 : (⟨2, ![1, B]⟩ : Shape).Idx → EReal) (w2 : (⟨2, ![B, C]⟩ : Shape).Idx → EReal)
    (b2 : (⟨2, ![1, C]⟩ : Shape).Idx → EReal) (w3 : (⟨2, ![C, D]⟩ : Shape).Idx → EReal) (d : Fin D) : EReal :=
  ∑ k : Fin C, hidden (fun j => hidden row w1 b1 j) w2 b2 k * w3 (ix2 k d)

/-- The perceptron on every row of `p`. -/
def edgeScores {E A B C D : Nat} (p : (⟨2, ![E, A]⟩ : Shape).Idx → EReal) (w1 : (⟨2, ![A, B]⟩ : Shape).Idx → EReal)
    (b1 : (⟨2, ![1, B]⟩ : Shape).Idx → EReal) (w2 : (⟨2, ![B, C]⟩ : Shape).Idx → EReal)
    (b2 : (⟨2, ![1, C]⟩ : Shape).Idx → EReal) (w3 : (⟨2, ![C, D]⟩ : Shape).Idx → EReal) :
    (⟨2, ![E, D]⟩ : Shape).Idx → EReal :=
  fun i => mlpRow (fun l => p (ix2 (i 0 : Fin E) l)) w1 b1 w2 b2 w3 (i 1 : Fin D)

/-- The f32 word of 1.0 is the number 1. -/
theorem one_word : Ideal.ofBits .f32 0x3F800000#32 = 1 := by
  simp [Ideal.ofBits, Ideal.ieee, -EReal.coe_mul]; norm_num

/-- The logistic function spelt with the host's quotient and the word of 1.0: `1 / (1 + e^(-x))`. -/
theorem logistic_spelt (x : EReal) :
    Ideal.div (Ideal.ofBits .f32 0x3F800000#32) (Ideal.ofBits .f32 0x3F800000#32 + Ideal.exp (-x)) = Ideal.logistic x := by
  rw [one_word]; rfl

end Cert.Graph

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«144550_j21406117004231_2_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.BlocksScale.lean ====
/-
  The two "scale the rows, then multiply by a weight" kernels, from blocks of rows to whole arrays.

  Each grid point t of such a kernel holds rows 5000·t … 5000·t + 4999 of the left operand and of the one-column
  array of row factors, and the whole weight; what it stores at (p, j) is the sum over k of
  (x (p, k) · n (p, 0)) · w (k, j), which is the specification's `scaledTimes` at row 5000·t + p of the whole
  arrays. The ten blocks of 5000 rows tile the 50000 rows (row r lies in block r / 5000), so the array the
  write-backs leave is `scaledTimes` of the three input arrays.
-/
import proofs.«144550_j21406117004231_2_alg».proof.Proof.Gen.KernelIdeal.Frame
import proofs.«144550_j21406117004231_2_alg».proof.Proof.Spec
import proofs.«144550_j21406117004231_2_alg».proof.Proof.LibRowsTimes
import proofs.«144550_j21406117004231_2_alg».proof.Proof.LibRowsCols
import proofs.«144550_j21406117004231_2_alg».proof.Proof.LibColumnLayout
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.ValueIdx
open Idealize.ShloMosaic.Pipeline (Dat)

namespace Cert.KernelIdeal.Blocks

open Cert.KernelIdeal Cert.KernelIdeal.Gen Cert.Dense Cert.Graph

/-- The zero offsets of a whole-block rectangle, as a function. -/
theorem hz : (![0, 0] : Fin 2 → Nat) = fun _ => 0 := funext fun a => by fin_cases a <;> rfl

/-! ## The two printed contraction records are "rows times columns" -/

theorem rowsCols_256 : RowsCols dot_S5000x256_S256x36_S5000x36_1_0_0_1_n_n where
  rank := rfl
  size := rfl
  l0 j k := by
    unfold DotDims.lhsIdx
    rw [dif_neg (show ¬(0 : Fin S5000x256.rank) ∈ dot_S5000x256_S256x36_S5000x36_1_0_0_1_n_n.lhsBatch by decide), dif_pos (show (0 : Fin S5000x256.rank) ∈ dot_S5000x256_S256x36_S5000x36_1_0_0_1_n_n.lhsNonContracting by decide)]
    rfl
  l1 j k := dot_S5000x256_S256x36_S5000x36_1_0_0_1_n_n.lhsIdx_val_of_single rfl j k
  r0 j k := dot_S5000x256_S256x36_S5000x36_1_0_0_1_n_n.rhsIdx_val_of_single rfl j k
  r1 j k := by
    unfold DotDims.rhsIdx
    rw [dif_neg (show ¬(1 : Fin S256x36.rank) ∈ dot_S5000x256_S256x36_S5000x36_1_0_0_1_n_n.rhsBatch by decide), dif_pos (show (1 : Fin S256x36.rank) ∈ dot_S5000x256_S256x36_S5000x36_1_0_0_1_n_n.rhsNonContracting by decide)]
    rfl

theorem rowsCols_36 : RowsCols dot_S5000x36_S36x36_S5000x36_1_0_0_1_n_n where
  rank := rfl
  size := rfl
  l0 j k := by
    unfold DotDims.lhsIdx
    rw [dif_neg (show ¬(0 : Fin S5000x36.rank) ∈ dot_S5000x36_S36x36_S5000x36_1_0_0_1_n_n.lhsBatch by decide), dif_pos (show (0 : Fin S5000x36.rank) ∈ dot_S5000x36_S36x36_S5000x36_1_0_0_1_n_n.lhsNonContracting by decide)]
    rfl
  l1 j k := dot_S5000x36_S36x36_S5000x36_1_0_0_1_n_n.lhsIdx_val_of_single rfl j k
  r0 j k := dot_S5000x36_S36x36_S5000x36_1_0_0_1_n_n.rhsIdx_val_of_single rfl j k
  r1 j k := by
    unfold DotDims.rhsIdx
    rw [dif_neg (show ¬(1 : Fin S36x36.rank) ∈ dot_S5000x36_S36x36_S5000x36_1_0_0_1_n_n.rhsBatch by decide), dif_pos (show (1 : Fin S36x36.rank) ∈ dot_S5000x36_S36x36_S5000x36_1_0_0_1_n_n.rhsNonContracting by decide)]
    rfl

/-! ## What a grid point stores, at an entry -/

/-- The first kernel's stored block at (p, j): the sum over k of (x (p, k) · n (p, 0)) · w (k, j). -/
theorem pay0_apply (x : FVec Ideal S5000x256 .f32) (n : FVec Ideal S5000x1 .f32) (w : FVec Ideal S256x36 .f32)
    (p : Fin 5000) (j : Fin 36) :
    k0_pay1 (F := Ideal) x n w (ix2 p j) = ∑ k : Fin 256, (x (ix2 p k) * n (ix2 p (0 : Fin 1))) * w (ix2 k j) := by
  unfold k0_pay1
  refine (matmul_zero_apply rowsCols_256 none _ w (ix2 p j)).trans ?_
  refine Finset.sum_congr rfl fun k _ => congrArg (· * w (ix2 k j)) ?_
  refine (mulf_apply _ _ _).trans (congrArg (x (ix2 p k) * ·) ?_)
  refine (ColumnLayout.broadcastTo_a1_ab_apply _ broadcasts_S5000x1_S5000x256 p k).trans ?_
  rw [shapeCast_self]

/-- The second kernel's stored block at (p, j), likewise (its left operand's identity cast drops). -/
theorem pay1_apply (x : FVec Ideal S5000x36 .f32) (n : FVec Ideal S5000x1 .f32) (w : FVec Ideal S36x36 .f32)
    (p : Fin 5000) (j : Fin 36) :
    k1_pay1 (F := Ideal) x n w (ix2 p j) = ∑ k : Fin 36, (x (ix2 p k) * n (ix2 p (0 : Fin 1))) * w (ix2 k j) := by
  unfold k1_pay1
  refine (matmul_zero_apply rowsCols_36 none _ w (ix2 p j)).trans ?_
  refine Finset.sum_congr rfl fun k _ => congrArg (· * w (ix2 k j)) ?_
  refine (mulf_apply _ _ _).trans ?_
  rw [shapeCast_self]
  refine congrArg (x (ix2 p k) * ·) ?_
  refine (ColumnLayout.broadcastTo_a1_ab_apply _ broadcasts_S5000x1_S5000x36 p k).trans ?_
  rw [shapeCast_self]

/-! ## A block of rows of the specification -/

/-- If a block `x` of 5000 rows, and the block `nb` of their factors, hold rows `b · 5000 + p` of the whole arrays
    `A` and `n`, then the sums a grid point stores at `y` are `scaledTimes A n W` at the array index `i` that `y`
    names: row `b · 5000 + y 0`, column `y 1`. -/
theorem scaledTimes_block {K N : Nat} (A : (⟨2, ![50000, K]⟩ : Shape).Idx → EReal) (n : (⟨2, ![50000, 1]⟩ : Shape).Idx → EReal)
    (W : (⟨2, ![K, N]⟩ : Shape).Idx → EReal) (x : (⟨2, ![5000, K]⟩ : Shape).Idx → EReal)
    (nb : (⟨2, ![5000, 1]⟩ : Shape).Idx → EReal) (w : (⟨2, ![K, N]⟩ : Shape).Idx → EReal) (b : Nat)
    (p : Fin 5000) (j : Fin N) (i : (⟨2, ![50000, N]⟩ : Shape).Idx)
    (hi0 : ((i 0 : Fin 50000) : Nat) = b * 5000 + p.val) (hi1 : ((i 1 : Fin N) : Nat) = j.val)
    (hx : ∀ (k : Fin K) (r : Fin 50000), r.val = b * 5000 + p.val → x (ix2 p k) = A (ix2 r k))
    (hn : ∀ r : Fin 50000, r.val = b * 5000 + p.val → nb (ix2 p (0 : Fin 1)) = n (ix2 r (0 : Fin 1)))
    (hw : ∀ (k : Fin K) (j : Fin N), w (ix2 k j) = W (ix2 k j)) :
    ∑ k : Fin K, (x (ix2 p k) * nb (ix2 p (0 : Fin 1))) * w (ix2 k j) = scaledTimes A n W i := by
  unfold scaledTimes
  have hj : (i 1 : Fin N) = j := Fin.ext hi1
  refine Finset.sum_congr rfl fun k _ => ?_
  rw [hx k (i 0 : Fin 50000) hi0, hn (i 0 : Fin 50000) hi0, hw k j, hj]

variable (V : (c : Dev nD) → (b : Ref sig .tc) → Buf (Elt Ideal) ((c : Thread nD τ).loc b))

/-! ## The first kernel (region 0) -/

/-- The printed block index maps, decided over the ten grid points: the row-blocked windows are at block (t, 0), the
    weight's window at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The left operand's block at point `t` is rows `5000 t + p` of the array. -/
theorem iblk0_0_apply (c : Dev nD) (t : Fin cfg0.N) (p : Fin 5000) (k : Fin 256) (r : Fin 50000)
    (hr : r.val = t.val * 5000 + p.val) :
    (iblk0 (F := Ideal) V c 0 t : S5000x256.Idx → EReal) (ix2 p k) = (V c main_arg0 : S50000x256.Idx → EReal) (ix2 r k) := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 5000 + 1 * p.val = r.val; omega
  | ⟨1, _⟩ => show win0_0.index t (1 : Fin 2) * 256 + 1 * k.val = k.val; omega

/-- The factors' block at point `t` is rows `5000 t + p` of the one-column array. -/
theorem iblk0_1_apply (c : Dev nD) (t : Fin cfg0.N) (p : Fin 5000) (r : Fin 50000)
    (hr : r.val = t.val * 5000 + p.val) :
    (iblk0 (F := Ideal) V c 1 t : S5000x1.Idx → EReal) (ix2 p (0 : Fin 1)) = (V c main_v13 : S50000x1.Idx → EReal) (ix2 r (0 : Fin 1)) := by
  obtain ⟨-, -, e0, e1, -⟩ := idx_facts0 t
  unfold iblk0
  rw [View.read_apply]
  show V c main_v13 _ = V c main_v13 _
  congr 1
  funext a; apply Fin.ext
  match a with
  | ⟨0, _⟩ => show win0_1.index t (0 : Fin 2) * 5000 + 1 * p.val = r.val; omega
  | ⟨1, _⟩ => show win0_1.index t (1 : Fin 2) * 1 + 1 * 0 = 0; omega

/-- The weight's block at every point is the whole weight. -/
theorem iblk0_2_apply (c : Dev nD) (t : Fin cfg0.N) (k : Fin 256) (j : Fin 36) :
    (iblk0 (F := Ideal) V c 2 t : S256x36.Idx → EReal) (ix2 k j) = (V c main_arg3 : S256x36.Idx → EReal) (ix2 k j) := by
  obtain ⟨-, -, -, -, e0, e1, -⟩ := idx_facts0 t
  unfold iblk0
  rw [View.read_apply]
  show V c main_arg3 _ = V c main_arg3 _
  congr 1
  funext a; apply Fin.ext
  match a with
  | ⟨0, _⟩ => show win0_2.index t (0 : Fin 2) * 256 + 1 * k.val = k.val; omega
  | ⟨1, _⟩ => show win0_2.index t (1 : Fin 2) * 36 + 1 * j.val = j.val; omega

/-- What point `t` stores at `y` is the specification at the array index `i` that `y` names. -/
theorem block0_apply (c : Dev nD) (t : Fin cfg0.N) (y : S5000x36.Idx) (i : S50000x36.Idx)
    (hi0 : (i 0).val = t.val * 5000 + (y 0).val) (hi1 : (i 1).val = (y 1).val) :
    k0_pay1 (F := Ideal) (iblk0 V c 0 t) (iblk0 V c 1 t) (iblk0 V c 2 t) y
      = scaledTimes (V c main_arg0) (V c main_v13) (V c main_arg3) i := by
  obtain ⟨p, j, rfl⟩ : ∃ (p : Fin 5000) (j : Fin 36), y = ix2 p j := ⟨y 0, y 1, eq_ix2 y⟩
  refine (pay0_apply (iblk0 V c 0 t) (iblk0 V c 1 t) (iblk0 V c 2 t) p j).trans ?_
  exact scaledTimes_block (V c main_arg0) (V c main_v13) (V c main_arg3) (iblk0 V c 0 t) (iblk0 V c 1 t) (iblk0 V c 2 t)
    t.val p j i hi0 hi1 (fun k r hr => iblk0_0_apply V c t p k r hr) (fun r hr => iblk0_1_apply V c t p r hr)
    (fun k j => iblk0_2_apply V c t k j)

/-- What point `t` writes back is block `t` of the specification of the arrays the region finds. -/
theorem flushed0 (c : Dev nD) (t : Fin cfg0.N) :
    (dat0 (F := Ideal) V c).flushed 3 t
      = ((cfg0.win 3).blk t).view.read (Elt Ideal) (scaledTimes (V c main_arg0) (V c main_v13) (V c main_arg3)) := by
  show (cfg0.win 3).cut (grid0.coords t) ((dat0 V c).after 3 t) = _
  rw [after0_3]
  unfold out0_3
  rw [View.canon_unit_zero hz]
  simp only [View.ld_unit_zero (S := S5000x256) hz, View.ld_unit_zero (S := S5000x1) hz, View.ld_unit_zero (S := S256x36) hz]
  obtain ⟨-, -, -, -, -, -, e0, e1⟩ := idx_facts0 t
  funext y
  show k0_pay1 (F := Ideal) (iblk0 V c 0 t) (iblk0 V c 1 t) (iblk0 V c 2 t) y
    = scaledTimes (V c main_arg0) (V c main_v13) (V c main_arg3) (((cfg0.win 3).blk t).view.emb y)
  refine block0_apply V c t y (((cfg0.win 3).blk t).view.emb y) ?_ ?_
  · show win0_3.index t (0 : Fin 2) * 5000 + 1 * (y 0).val = t.val * 5000 + (y 0).val; omega
  · show win0_3.index t (1 : Fin 2) * 36 + 1 * (y 1).val = (y 1).val; omega

/-- An index of the result array is in point `t`'s block iff each coordinate is in the block's range on its axis. -/
theorem mem_blk0 (t : Fin cfg0.N) (i : S50000x36.Idx) :
    i ∈ ((cfg0.win 3).blk t).view.set ↔ ∀ a : Fin 2, win0_3.index t a * S5000x36.size a ≤ (i a).val ∧ (i a).val < win0_3.index t a * S5000x36.size a + S5000x36.size a := by
  show i ∈ ((View.whole main_v14).slice (win0_3.rect t)).set ↔ _
  rw [View.set_slice_whole, Rect.mem_set_unit]
  exact Iff.rfl

/-- Row `r` of the result lies in the block of point `r / 5000`, which writes it back. -/
theorem cover0 (i : S50000x36.Idx) : ∃ t : Fin cfg0.N, (cfg0.win 3).flush t = true ∧ i ∈ ((cfg0.win 3).blk t).view.set := by
  have hN : cfg0.N = 10 := N_0
  have h0 : (i 0).val < 50000 := (i 0).isLt
  have h1 : (i 1).val < 36 := (i 1).isLt
  have hq : (i 0).val / 5000 < cfg0.N := by omega
  obtain ⟨-, -, -, -, -, -, e0, e1⟩ := idx_facts0 ⟨(i 0).val / 5000, hq⟩
  have e0' : win0_3.index ⟨(i 0).val / 5000, hq⟩ (0 : Fin 2) = (i 0).val / 5000 := e0
  refine ⟨⟨(i 0).val / 5000, hq⟩, flush0_3 _, ?_⟩
  rw [mem_blk0]
  intro a
  match a with
  | ⟨0, _⟩ => show win0_3.index ⟨(i 0).val / 5000, hq⟩ (0 : Fin 2) * 5000 ≤ (i 0).val ∧ (i 0).val < win0_3.index ⟨(i 0).val / 5000, hq⟩ (0 : Fin 2) * 5000 + 5000; omega
  | ⟨1, _⟩ => show win0_3.index ⟨(i 0).val / 5000, hq⟩ (1 : Fin 2) * 36 ≤ (i 1).val ∧ (i 1).val < win0_3.index ⟨(i 0).val / 5000, hq⟩ (1 : Fin 2) * 36 + 36; omega

/-- THE FIRST KERNEL'S RESULT ARRAY: the specification of the three arrays the region finds. -/
theorem region0_array (c : Dev nD) :
    (dat0 (F := Ideal) V c).arrAt 3 cfg0.N = scaledTimes (V c main_arg0) (V c main_v13) (V c main_arg3) :=
  (dat0 (F := Ideal) V c).arrAt_eq_of_cover 3 (scaledTimes (V c main_arg0) (V c main_v13) (V c main_arg3))
    (fun t _ => flushed0 V c t) cover0

/-! ## The second kernel (region 1) -/

/-- Its printed block index maps, decided over the ten grid points. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The left operand's block at point `t` is rows `5000 t + p` of the array. -/
theorem iblk1_0_apply (c : Dev nD) (t : Fin cfg1.N) (p : Fin 5000) (k : Fin 36) (r : Fin 50000)
    (hr : r.val = t.val * 5000 + p.val) :
    (iblk1 (F := Ideal) V c 0 t : S5000x36.Idx → EReal) (ix2 p k) = (V c main_v31 : S50000x36.Idx → EReal) (ix2 r k) := by
  obtain ⟨e0, e1, -⟩ := idx_facts1 t
  unfold iblk1
  rw [View.read_apply]
  show V c main_v31 _ = V c main_v31 _
  congr 1
  funext a; apply Fin.ext
  match a with
  | ⟨0, _⟩ => show win1_0.index t (0 : Fin 2) * 5000 + 1 * p.val = r.val; omega
  | ⟨1, _⟩ => show win1_0.index t (1 : Fin 2) * 36 + 1 * k.val = k.val; omega

/-- The factors' block at point `t` is rows `5000 t + p` of the one-column array. -/
theorem iblk1_1_apply (c : Dev nD) (t : Fin cfg1.N) (p : Fin 5000) (r : Fin 50000)
    (hr : r.val = t.val * 5000 + p.val) :
    (iblk1 (F := Ideal) V c 1 t : S5000x1.Idx → EReal) (ix2 p (0 : Fin 1)) = (V c main_v32 : S50000x1.Idx → EReal) (ix2 r (0 : Fin 1)) := by
  obtain ⟨-, -, e0, e1, -⟩ := idx_facts1 t
  unfold iblk1
  rw [View.read_apply]
  show V c main_v32 _ = V c main_v32 _
  congr 1
  funext a; apply Fin.ext
  match a with
  | ⟨0, _⟩ => show win1_1.index t (0 : Fin 2) * 5000 + 1 * p.val = r.val; omega
  | ⟨1, _⟩ => show win1_1.index t (1 : Fin 2) * 1 + 1 * 0 = 0; omega

/-- The weight's block at every point is the whole weight. -/
theorem iblk1_2_apply (c : Dev nD) (t : Fin cfg1.N) (k : Fin 36) (j : Fin 36) :
    (iblk1 (F := Ideal) V c 2 t : S36x36.Idx → EReal) (ix2 k j) = (V c main_arg5 : S36x36.Idx → EReal) (ix2 k j) := by
  obtain ⟨-, -, -, -, e0, e1, -⟩ := idx_facts1 t
  unfold iblk1
  rw [View.read_apply]
  show V c main_arg5 _ = V c main_arg5 _
  congr 1
  funext a; apply Fin.ext
  match a with
  | ⟨0, _⟩ => show win1_2.index t (0 : Fin 2) * 36 + 1 * k.val = k.val; omega
  | ⟨1, _⟩ => show win1_2.index t (1 : Fin 2) * 36 + 1 * j.val = j.val; omega

/-- What point `t` stores at `y` is the specification at the array index `i` that `y` names. -/
theorem block1_apply (c : Dev nD) (t : Fin cfg1.N) (y : S5000x36.Idx) (i : S50000x36.Idx)
    (hi0 : (i 0).val = t.val * 5000 + (y 0).val) (hi1 : (i 1).val = (y 1).val) :
    k1_pay1 (F := Ideal) (iblk1 V c 0 t) (iblk1 V c 1 t) (iblk1 V c 2 t) y
      = scaledTimes (V c main_v31) (V c main_v32) (V c main_arg5) i := by
  obtain ⟨p, j, rfl⟩ : ∃ (p : Fin 5000) (j : Fin 36), y = ix2 p j := ⟨y 0, y 1, eq_ix2 y⟩
  refine (pay1_apply (iblk1 V c 0 t) (iblk1 V c 1 t) (iblk1 V c 2 t) p j).trans ?_
  exact scaledTimes_block (V c main_v31) (V c main_v32) (V c main_arg5) (iblk1 V c 0 t) (iblk1 V c 1 t) (iblk1 V c 2 t)
    t.val p j i hi0 hi1 (fun k r hr => iblk1_0_apply V c t p k r hr) (fun r hr => iblk1_1_apply V c t p r hr)
    (fun k j => iblk1_2_apply V c t k j)

/-- What point `t` writes back is block `t` of the specification of the arrays the region finds. -/
theorem flushed1 (c : Dev nD) (t : Fin cfg1.N) :
    (dat1 (F := Ideal) V c).flushed 3 t
      = ((cfg1.win 3).blk t).view.read (Elt Ideal) (scaledTimes (V c main_v31) (V c main_v32) (V c main_arg5)) := by
  show (cfg1.win 3).cut (grid1.coords t) ((dat1 V c).after 3 t) = _
  rw [after1_3]
  unfold out1_3
  rw [View.canon_unit_zero hz]
  simp only [View.ld_unit_zero (S := S5000x36) hz, View.ld_unit_zero (S := S5000x1) hz, View.ld_unit_zero (S := S36x36) hz]
  obtain ⟨-, -, -, -, -, -, e0, e1⟩ := idx_facts1 t
  funext y
  show k1_pay1 (F := Ideal) (iblk1 V c 0 t) (iblk1 V c 1 t) (iblk1 V c 2 t) y
    = scaledTimes (V c main_v31) (V c main_v32) (V c main_arg5) (((cfg1.win 3).blk t).view.emb y)
  refine block1_apply V c t y (((cfg1.win 3).blk t).view.emb y) ?_ ?_
  · show win1_3.index t (0 : Fin 2) * 5000 + 1 * (y 0).val = t.val * 5000 + (y 0).val; omega
  · show win1_3.index t (1 : Fin 2) * 36 + 1 * (y 1).val = (y 1).val; omega

/-- An index of the result array is in point `t`'s block iff each coordinate is in the block's range on its axis. -/
theorem mem_blk1 (t : Fin cfg1.N) (i : S50000x36.Idx) :
    i ∈ ((cfg1.win 3).blk t).view.set ↔ ∀ a : Fin 2, win1_3.index t a * S5000x36.size a ≤ (i a).val ∧ (i a).val < win1_3.index t a * S5000x36.size a + S5000x36.size a := by
  show i ∈ ((View.whole main_v33).slice (win1_3.rect t)).set ↔ _
  rw [View.set_slice_whole, Rect.mem_set_unit]
  exact Iff.rfl

/-- Row `r` of the result lies in the block of point `r / 5000`, which writes it back. -/
theorem cover1 (i : S50000x36.Idx) : ∃ t : Fin cfg1.N, (cfg1.win 3).flush t = true ∧ i ∈ ((cfg1.win 3).blk t).view.set := by
  have hN : cfg1.N = 10 := N_1
  have h0 : (i 0).val < 50000 := (i 0).isLt
  have h1 : (i 1).val < 36 := (i 1).isLt
  have hq : (i 0).val / 5000 < cfg1.N := by omega
  obtain ⟨-, -, -, -, -, -, e0, e1⟩ := idx_facts1 ⟨(i 0).val / 5000, hq⟩
  have e0' : win1_3.index ⟨(i 0).val / 5000, hq⟩ (0 : Fin 2) = (i 0).val / 5000 := e0
  refine ⟨⟨(i 0).val / 5000, hq⟩, flush1_3 _, ?_⟩
  rw [mem_blk1]
  intro a
  match a with
  | ⟨0, _⟩ => show win1_3.index ⟨(i 0).val / 5000, hq⟩ (0 : Fin 2) * 5000 ≤ (i 0).val ∧ (i 0).val < win1_3.index ⟨(i 0).val / 5000, hq⟩ (0 : Fin 2) * 5000 + 5000; omega
  | ⟨1, _⟩ => show win1_3.index ⟨(i 0).val / 5000, hq⟩ (1 : Fin 2) * 36 ≤ (i 1).val ∧ (i 1).val < win1_3.index ⟨(i 0).val / 5000, hq⟩ (1 : Fin 2) * 36 + 36; omega

/-- THE SECOND KERNEL'S RESULT ARRAY: the specification of the three arrays the region finds. -/
theorem region1_array (c : Dev nD) :
    (dat1 (F := Ideal) V c).arrAt 3 cfg1.N = scaledTimes (V c main_v31) (V c main_v32) (V c main_arg5) :=
  (dat1 (F := Ideal) V c).arrAt_eq_of_cover 3 (scaledTimes (V c main_v31) (V c main_v32) (V c main_arg5))
    (fun t _ => flushed1 V c t) cover1

end Cert.KernelIdeal.Blocks

end
-- ==== Proof.LibRowLayers.lean ====
/-
  The layers of a small perceptron applied to a block of `R` rows at once, read at one row `p`.

  Each lemma takes what the layer's input holds in row `p` (`ha : ∀ k, a (p, k) = row k`) and says what the
  layer's output holds at `(p, j)`, as a function of `row` alone — so a stack of layers is read by stacking the
  lemmas, one row at a time, whatever the number of rows in the block:

  * `product_apply` — the matrix unit's product with a `[K, N]` weight block into a zero accumulator:
    `∑ k, row k · w (k, j)`;
  * `bias_apply` — a `[1, N]` row repeated down the rows: its entry in column `j`;
  * `dense_apply`, `denseWith_apply` — product plus bias, and product plus an outer product `u (p) · wu (j)` of a
    one-column array with a one-row array plus bias (a layer whose last input coordinate is kept apart);
  * `unit_apply` — the rows divided by their Euclidean lengths (sum of squares along the row, kept as a column,
    square root, maximum with a floor, column repeated along the row, quotient):
    `row j / max (√(∑ k, row k²)) floor`.

  Only the definitions of the operations on the extended reals are used; nothing needs the entries to be finite.
-/
import Idealize.ShloMosaic.PureOps.Ideal.Laws
import Idealize.ShloMosaic.Lib.ValueIdx
import Idealize.ShloMosaic.Lib.ValueLayout
import Idealize.ShloMosaic.Lib.Pipeline.Value
import proofs.«144550_j21406117004231_2_alg».proof.Proof.LibRowsTimes
import proofs.«144550_j21406117004231_2_alg».proof.Proof.LibRowsCols
import proofs.«144550_j21406117004231_2_alg».proof.Proof.LibColumnLayout

noncomputable section

namespace Cert.RowLayers

open Idealize.ShloMosaic Idealize.ShloMosaic.ValueIdx Cert.Dense

variable {R K N : Nat}

/-- A `[1, N]` row (cast to its own shape) repeated down `R` rows reads, at `(p, j)`, the row at `j`. -/
theorem bias_apply {α : Type} (b : (⟨2, ![1, N]⟩ : Shape).Idx → α) (h₁ : (⟨2, ![1, N]⟩ : Shape).ShapeCasts ⟨2, ![1, N]⟩)
    (h₂ : (⟨2, ![1, N]⟩ : Shape).Broadcasts ⟨2, ![R, N]⟩) (p : Fin R) (j : Fin N) :
    broadcastTo ⟨2, ![R, N]⟩ (shapeCast ⟨2, ![1, N]⟩ b h₁) h₂ (ix2 p j) = b (ix2 (0 : Fin 1) j) := by
  rw [shapeCast_self]; exact broadcastTo_1b_ab_apply b h₂ p j

/-- The matrix unit's product of a block whose row `p` is `row` with a weight block, into the zero accumulator,
    at `(p, j)`: `∑ k, row k · w (k, j)`. -/
theorem product_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩) (p : Fin R) (j : Fin N)
    (row : Fin K → EReal) (ha : ∀ k, a (ix2 p k) = row k) :
    matmul d prec a (shapeCast ⟨2, ![K, N]⟩ w hc) (constant (F := Ideal) ⟨2, ![R, N]⟩ .f32 0x00000000#32) (ix2 p j)
      = ∑ k : Fin K, row k * w (ix2 k j) := by
  rw [shapeCast_self]
  refine (matmul_zero_apply hd prec a w (ix2 p j)).trans ?_
  exact Finset.sum_congr rfl fun k _ => congrArg (· * w (ix2 k j)) (ha k)

/-- Product plus bias at `(p, j)`. -/
theorem dense_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (p : Fin R) (j : Fin N)
    (row : Fin K → EReal) (ha : ∀ k, a (ix2 p k) = row k) :
    addf (matmul d prec a (shapeCast ⟨2, ![K, N]⟩ w hc) (constant (F := Ideal) ⟨2, ![R, N]⟩ .f32 0x00000000#32))
        (broadcastTo ⟨2, ![R, N]⟩ (shapeCast ⟨2, ![1, N]⟩ b hb₁) hb₂) (ix2 p j)
      = (∑ k : Fin K, row k * w (ix2 k j)) + b (ix2 (0 : Fin 1) j) :=
  (addf_apply _ _ _).trans (congrArg₂ (· + ·) (product_apply d hd prec a w hc p j row ha) (bias_apply b hb₁ hb₂ p j))

/-- Product, plus the outer product of a one-column array `u` with a one-row array `wu`, plus bias, at `(p, j)`. -/
theorem denseWith_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩)
    (u : FVec Ideal ⟨2, ![R, 1]⟩ .f32) (hu : (⟨2, ![R, 1]⟩ : Shape).Broadcasts ⟨2, ![R, N]⟩)
    (wu : FVec Ideal ⟨2, ![1, N]⟩ .f32) (hw₁ : (⟨2, ![1, N]⟩ : Shape).ShapeCasts ⟨2, ![1, N]⟩)
    (hw₂ : (⟨2, ![1, N]⟩ : Shape).Broadcasts ⟨2, ![R, N]⟩)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (p : Fin R) (j : Fin N)
    (row : Fin K → EReal) (ha : ∀ k, a (ix2 p k) = row k) :
    addf (addf (matmul d prec a (shapeCast ⟨2, ![K, N]⟩ w hc) (constant (F := Ideal) ⟨2, ![R, N]⟩ .f32 0x00000000#32))
          (mulf (broadcastTo ⟨2, ![R, N]⟩ u hu) (broadcastTo ⟨2, ![R, N]⟩ (shapeCast ⟨2, ![1, N]⟩ wu hw₁) hw₂)))
        (broadcastTo ⟨2, ![R, N]⟩ (shapeCast ⟨2, ![1, N]⟩ b hb₁) hb₂) (ix2 p j)
      = (∑ k : Fin K, row k * w (ix2 k j)) + u (ix2 p (0 : Fin 1)) * wu (ix2 (0 : Fin 1) j) + b (ix2 (0 : Fin 1) j) :=
  (addf_apply _ _ _).trans (congrArg₂ (· + ·)
    ((addf_apply _ _ _).trans (congrArg₂ (· + ·) (product_apply d hd prec a w hc p j row ha)
      ((mulf_apply _ _ _).trans (congrArg₂ (· * ·) (ColumnLayout.broadcastTo_a1_ab_apply u hu p j) (bias_apply wu hw₁ hw₂ p j)))))
    (bias_apply b hb₁ hb₂ p j))

/-- The index a sum along the row inserts: `(p, k)`. -/
theorem lift_row (hred : (⟨2, ![R, N]⟩ : Shape).Reduces [1] ⟨1, ![R]⟩) (p : Fin R) (k : Fin N) :
    hred.lift (ix1 p) k = ix2 p k := by
  funext x; apply Fin.ext
  match x with
  | ⟨0, _⟩ => rfl
  | ⟨1, _⟩ => rfl

/-- The rows divided by their Euclidean lengths kept above a floor, at `(p, j)`. -/
theorem unit_apply (a : FVec Ideal ⟨2, ![R, N]⟩ .f32) (fl : BitVec 32)
    (hred : (⟨2, ![R, N]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, N]⟩)
    (p : Fin R) (j : Fin N) (row : Fin N → EReal) (ha : ∀ k, a (ix2 p k) = row k) :
    divf a (broadcastTo ⟨2, ![R, N]⟩
        (maximumf (sqrt (shapeCast ⟨2, ![R, 1]⟩ (multiReduction .add [1] ⟨1, ![R]⟩ (mulf a a) 0x00000000#32 hred hφ hacc) hc))
          (broadcast ⟨2, ![R, 1]⟩ (Scalar.ofBits .f32 fl))) hb) (ix2 p j)
      = Ideal.div (row j) (max (Ideal.sqrt (∑ k : Fin N, row k * row k)) (Ideal.ofBits .f32 fl)) := by
  refine (divf_apply _ _ _).trans ?_
  rw [ColumnLayout.broadcastTo_a1_ab_apply _ hb p j, ha j]
  refine congrArg (fun s => Ideal.div (row j) (max (Ideal.sqrt s) (Ideal.ofBits .f32 fl))) ?_
  refine (ColumnLayout.shapeCast_a_a1_apply _ hc p 0).trans ?_
  refine (Ideal.multiReduction_add_single (mulf a a) 0x00000000#32 hred hφ hacc (ix1 p)).trans ?_
  exact Finset.sum_congr rfl fun k _ => by
    rw [lift_row hred p k]
    exact (mulf_apply a a _).trans (by rw [ha k])

end Cert.RowLayers

end
-- ==== Proof.BlocksMlp.lean ====
/-
  The per-edge perceptron computed one block of 16000 edges at a time is the perceptron of the whole pair array.

  A grid point reads rows 16000·t … 16000·t + 15999 of the [1600000, 72] pair array and the five small
  weight and bias arrays whole, and writes the same rows of the [1600000, 1] result.  Read at one row p of the
  block, each layer is a function of that row alone: a product into a zero accumulator is ∑ k, row k · w (k, j);
  the bias row is repeated down the rows; the logistic function is applied entry by entry; a change of float
  format is the identity on the extended reals.  So row p of the block's result is the perceptron of row p of the
  block, which is row 16000·t + p of the pair array; and the 100 blocks tile the result's rows, row r lying in
  block r / 16000.
-/
import proofs.«144550_j21406117004231_2_alg».proof.Proof.Gen.KernelIdeal.Frame
import proofs.«144550_j21406117004231_2_alg».proof.Proof.Spec
import proofs.«144550_j21406117004231_2_alg».proof.Proof.LibRowLayers
import Idealize.ShloMosaic.Lib.Pipeline.Value

noncomputable section

namespace Cert.KernelIdeal.BlocksMlp

open Cert.KernelIdeal Cert.KernelIdeal.Gen Idealize.ShloMosaic Idealize.ShloMosaic.ValueIdx Idealize.ShloMosaic.TcCoe
  Idealize.SL.Sem
open Idealize.ShloMosaic.Pipeline (Dat)
open Cert.Dense Cert.RowLayers

/-! ## One block: the payload at a row -/

/-- The record of the product [16000, 72] · [72, 36] contracts its one shared axis, rows against columns. -/
theorem rowsCols1 : RowsCols (R := 16000) (K := 72) (N := 36) dot_S16000x72_S72x36_S16000x36_1_0_0_1_n_n where
  rank := rfl
  size := rfl
  l0 j k := by
    unfold DotDims.lhsIdx
    rw [dif_neg (show ¬(0 : Fin S16000x72.rank) ∈ dot_S16000x72_S72x36_S16000x36_1_0_0_1_n_n.lhsBatch by decide),
      dif_pos (show (0 : Fin S16000x72.rank) ∈ dot_S16000x72_S72x36_S16000x36_1_0_0_1_n_n.lhsNonContracting by decide)]
    rfl
  l1 j k := dot_S16000x72_S72x36_S16000x36_1_0_0_1_n_n.lhsIdx_val_of_single rfl j k
  r0 j k := dot_S16000x72_S72x36_S16000x36_1_0_0_1_n_n.rhsIdx_val_of_single rfl j k
  r1 j k := by
    unfold DotDims.rhsIdx
    rw [dif_neg (show ¬(1 : Fin S72x36.rank) ∈ dot_S16000x72_S72x36_S16000x36_1_0_0_1_n_n.rhsBatch by decide),
      dif_pos (show (1 : Fin S72x36.rank) ∈ dot_S16000x72_S72x36_S16000x36_1_0_0_1_n_n.rhsNonContracting by decide)]
    rfl

/-- The record of the product [16000, 36] · [36, 36] contracts its one shared axis, rows against columns. -/
theorem rowsCols2 : RowsCols (R := 16000) (K := 36) (N := 36) dot_S16000x36_S36x36_S16000x36_1_0_0_1_n_n where
  rank := rfl
  size := rfl
  l0 j k := by
    unfold DotDims.lhsIdx
    rw [dif_neg (show ¬(0 : Fin S16000x36.rank) ∈ dot_S16000x36_S36x36_S16000x36_1_0_0_1_n_n.lhsBatch by decide),
      dif_pos (show (0 : Fin S16000x36.rank) ∈ dot_S16000x36_S36x36_S16000x36_1_0_0_1_n_n.lhsNonContracting by decide)]
    rfl
  l1 j k := dot_S16000x36_S36x36_S16000x36_1_0_0_1_n_n.lhsIdx_val_of_single rfl j k
  r0 j k := dot_S16000x36_S36x36_S16000x36_1_0_0_1_n_n.rhsIdx_val_of_single rfl j k
  r1 j k := by
    unfold DotDims.rhsIdx
    rw [dif_neg (show ¬(1 : Fin S36x36.rank) ∈ dot_S16000x36_S36x36_S16000x36_1_0_0_1_n_n.rhsBatch by decide),
      dif_pos (show (1 : Fin S36x36.rank) ∈ dot_S16000x36_S36x36_S16000x36_1_0_0_1_n_n.rhsNonContracting by decide)]
    rfl

/-- The record of the product [16000, 36] · [36, 1] contracts its one shared axis, rows against columns. -/
theorem rowsCols3 : RowsCols (R := 16000) (K := 36) (N := 1) dot_S16000x36_S36x1_S16000x1_1_0_0_1_n_n where
  rank := rfl
  size := rfl
  l0 j k := by
    unfold DotDims.lhsIdx
    rw [dif_neg (show ¬(0 : Fin S16000x36.rank) ∈ dot_S16000x36_S36x1_S16000x1_1_0_0_1_n_n.lhsBatch by decide),
      dif_pos (show (0 : Fin S16000x36.rank) ∈ dot_S16000x36_S36x1_S16000x1_1_0_0_1_n_n.lhsNonContracting by decide)]
    rfl
  l1 j k := dot_S16000x36_S36x1_S16000x1_1_0_0_1_n_n.lhsIdx_val_of_single rfl j k
  r0 j k := dot_S16000x36_S36x1_S16000x1_1_0_0_1_n_n.rhsIdx_val_of_single rfl j k
  r1 j k := by
    unfold DotDims.rhsIdx
    rw [dif_neg (show ¬(1 : Fin S36x1.rank) ∈ dot_S16000x36_S36x1_S16000x1_1_0_0_1_n_n.rhsBatch by decide),
      dif_pos (show (1 : Fin S36x1.rank) ∈ dot_S16000x36_S36x1_S16000x1_1_0_0_1_n_n.rhsNonContracting by decide)]
    rfl

/-- One hidden layer of a block at row `p`, unit `j`: product into a zero accumulator, bias row, logistic function, and the
    change of format (the identity here) — `hidden` of what the layer's input holds in row `p`. -/
theorem layer_apply {R K N : Nat} (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (hlt : FTy.bits .bf16 < FTy.bits .f32)
    (p : Fin R) (j : Fin N) (row : Fin K → EReal) (ha : ∀ k, a (ix2 p k) = row k) :
    truncf .bf16 (logistic (addf
        (matmul d prec a (shapeCast ⟨2, ![K, N]⟩ w hc) (constant (F := Ideal) ⟨2, ![R, N]⟩ .f32 0x00000000#32))
        (broadcastTo ⟨2, ![R, N]⟩ (shapeCast ⟨2, ![1, N]⟩ b hb₁) hb₂))) hlt (ix2 p j)
      = Cert.Graph.hidden row w b j :=
  congrArg Ideal.logistic (dense_apply d hd prec a w hc b hb₁ hb₂ p j row ha)

/-- The block's result at row `p`: the perceptron of the block's row `p`. -/
theorem payload_apply (x0 : Vec Ideal S16000x72 .bf16) (x1 : Vec Ideal S72x36 .bf16) (x2 : Vec Ideal S1x36 .f32)
    (x3 : Vec Ideal S36x36 .bf16) (x4 : Vec Ideal S1x36 .f32) (x5 : Vec Ideal S36x1 .bf16) (p : Fin 16000) (d : Fin 1) :
    k2_pay1 (F := Ideal) x0 x1 x2 x3 x4 x5 (ix2 p d)
      = Cert.Graph.mlpRow (fun l : Fin 72 => x0 (ix2 p l)) x1 x2 x3 x4 x5 d := by
  unfold Cert.Graph.mlpRow
  refine product_apply dot_S16000x36_S36x1_S16000x1_1_0_0_1_n_n rowsCols3 none _ x5 shapeCasts_S36x1_S36x1 p d _
    fun k => ?_
  refine layer_apply dot_S16000x36_S36x36_S16000x36_1_0_0_1_n_n rowsCols2 none _ x3 shapeCasts_S36x36_S36x36 x4
    shapeCasts_S1x36_S1x36 broadcasts_S1x36_S16000x36 bitsLt_bf16_f32 p k _ fun j => ?_
  refine layer_apply dot_S16000x72_S72x36_S16000x36_1_0_0_1_n_n rowsCols1 none _ x1 shapeCasts_S72x36_S72x36 x2
    shapeCasts_S1x36_S1x36 broadcasts_S1x36_S16000x36 bitsLt_bf16_f32 p j _ fun l => ?_
  rw [shapeCast_self]

/-! ## Every block: rows of the arrays -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The grid has 100 points. -/
theorem points : grid2.N = 100 := by decide

/-- The block indices, decided over the grid: the pair array's and the result's blocks are block `t` along the
    rows; the weights and biases are block 0, their whole array. -/
theorem index_facts : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

/-- The perceptron of every row of the pair array, from the arrays as the region finds them. -/
abbrev scores (c : Dev nD) : S1600000x1.Idx → EReal :=
  Cert.Graph.edgeScores (V c main_v65) (V c main_v66) (V c main_v69) (V c main_v67) (V c main_v70) (V c main_v68)

/-- Row `p` of the pair array's block at point `t` is row `16000·t + p` of the array. -/
theorem pairs_block (c : Dev nD) (t : Fin cfg2.N) (p : Fin 16000) (l : Fin 72) (r : Fin 1600000)
    (hr : r.val = 16000 * t.val + p.val) :
    (iblk2 V c 0 t : Vec Ideal S16000x72 .bf16) (ix2 p l) = (V c main_v65 : Vec Ideal S1600000x72 .bf16) (ix2 r l) := by
  obtain ⟨e00, e01, e10, e11, e20, e21, e30, e31, e40, e41, e50, e51, e60, e61⟩ := index_facts t
  unfold iblk2
  rw [View.read_apply]
  show V c main_v65 _ = V c main_v65 _
  congr 1
  funext a
  apply Fin.ext
  match a with
  | ⟨0, _⟩ => show win2_0.index t (0 : Fin 2) * 16000 + 1 * p.val = r.val; rw [e00, hr]; omega
  | ⟨1, _⟩ => show win2_0.index t (1 : Fin 2) * 72 + 1 * l.val = l.val; rw [e01]; omega

/-- Window 1 is its whole array at every point. -/
theorem weight1_block (c : Dev nD) (t : Fin cfg2.N) :
    (iblk2 V c 1 t : Vec Ideal S72x36 .bf16) = (V c main_v66 : Vec Ideal S72x36 .bf16) := by
  obtain ⟨e00, e01, e10, e11, e20, e21, e30, e31, e40, e41, e50, e51, e60, e61⟩ := index_facts t
  funext j
  unfold iblk2
  rw [View.read_apply]
  show V c main_v66 _ = V c main_v66 j
  congr 1
  funext a
  apply Fin.ext
  match a with
  | ⟨0, _⟩ => show win2_1.index t (0 : Fin 2) * 72 + 1 * (j 0).val = (j 0).val; rw [e10]; omega
  | ⟨1, _⟩ => show win2_1.index t (1 : Fin 2) * 36 + 1 * (j 1).val = (j 1).val; rw [e11]; omega

/-- Window 2 is its whole array at every point. -/
theorem bias1_block (c : Dev nD) (t : Fin cfg2.N) :
    (iblk2 V c 2 t : Vec Ideal S1x36 .f32) = (V c main_v69 : Vec Ideal S1x36 .f32) := by
  obtain ⟨e00, e01, e10, e11, e20, e21, e30, e31, e40, e41, e50, e51, e60, e61⟩ := index_facts t
  funext j
  unfold iblk2
  rw [View.read_apply]
  show V c main_v69 _ = V c main_v69 j
  congr 1
  funext a
  apply Fin.ext
  match a with
  | ⟨0, _⟩ => show win2_2.index t (0 : Fin 2) * 1 + 1 * (j 0).val = (j 0).val; rw [e20]; omega
  | ⟨1, _⟩ => show win2_2.index t (1 : Fin 2) * 36 + 1 * (j 1).val = (j 1).val; rw [e21]; omega

/-- Window 3 is its whole array at every point. -/
theorem weight2_block (c : Dev nD) (t : Fin cfg2.N) :
    (iblk2 V c 3 t : Vec Ideal S36x36 .bf16) = (V c main_v67 : Vec Ideal S36x36 .bf16) := by
  obtain ⟨e00, e01, e10, e11, e20, e21, e30, e31, e40, e41, e50, e51, e60, e61⟩ := index_facts t
  funext j
  unfold iblk2
  rw [View.read_apply]
  show V c main_v67 _ = V c main_v67 j
  congr 1
  funext a
  apply Fin.ext
  match a with
  | ⟨0, _⟩ => show win2_3.index t (0 : Fin 2) * 36 + 1 * (j 0).val = (j 0).val; rw [e30]; omega
  | ⟨1, _⟩ => show win2_3.index t (1 : Fin 2) * 36 + 1 * (j 1).val = (j 1).val; rw [e31]; omega

/-- Window 4 is its whole array at every point. -/
theorem bias2_block (c : Dev nD) (t : Fin cfg2.N) :
    (iblk2 V c 4 t : Vec Ideal S1x36 .f32) = (V c main_v70 : Vec Ideal S1x36 .f32) := by
  obtain ⟨e00, e01, e10, e11, e20, e21, e30, e31, e40, e41, e50, e51, e60, e61⟩ := index_facts t
  funext j
  unfold iblk2
  rw [View.read_apply]
  show V c main_v70 _ = V c main_v70 j
  congr 1
  funext a
  apply Fin.ext
  match a with
  | ⟨0, _⟩ => show win2_4.index t (0 : Fin 2) * 1 + 1 * (j 0).val = (j 0).val; rw [e40]; omega
  | ⟨1, _⟩ => show win2_4.index t (1 : Fin 2) * 36 + 1 * (j 1).val = (j 1).val; rw [e41]; omega

/-- Window 5 is its whole array at every point. -/
theorem weight3_block (c : Dev nD) (t : Fin cfg2.N) :
    (iblk2 V c 5 t : Vec Ideal S36x1 .bf16) = (V c main_v68 : Vec Ideal S36x1 .bf16) := by
  obtain ⟨e00, e01, e10, e11, e20, e21, e30, e31, e40, e41, e50, e51, e60, e61⟩ := index_facts t
  funext j
  unfold iblk2
  rw [View.read_apply]
  show V c main_v68 _ = V c main_v68 j
  congr 1
  funext a
  apply Fin.ext
  match a with
  | ⟨0, _⟩ => show win2_5.index t (0 : Fin 2) * 36 + 1 * (j 0).val = (j 0).val; rw [e50]; omega
  | ⟨1, _⟩ => show win2_5.index t (1 : Fin 2) * 1 + 1 * (j 1).val = (j 1).val; rw [e51]; omega

/-- The block's result at row `p` is the whole perceptron's at row `16000·t + p`. -/
theorem block_apply (c : Dev nD) (t : Fin cfg2.N) (p : Fin 16000) (d : Fin 1) (r : Fin 1600000)
    (hr : r.val = 16000 * t.val + p.val) :
    k2_pay1 (F := Ideal) (iblk2 V c 0 t) (iblk2 V c 1 t) (iblk2 V c 2 t) (iblk2 V c 3 t) (iblk2 V c 4 t) (iblk2 V c 5 t) (ix2 p d)
      = scores V c (ix2 r d) := by
  refine (payload_apply (iblk2 V c 0 t) (iblk2 V c 1 t) (iblk2 V c 2 t) (iblk2 V c 3 t) (iblk2 V c 4 t) (iblk2 V c 5 t) p d).trans ?_
  rw [weight1_block V c t, bias1_block V c t, weight2_block V c t, bias2_block V c t, weight3_block V c t]
  show Cert.Graph.mlpRow _ _ _ _ _ _ d = Cert.Graph.mlpRow _ _ _ _ _ _ d
  congr 1
  funext l
  exact pairs_block V c t p l r hr

/-- The same at any index of the block and the index of the array it sits at. -/
theorem block_apply_idx (c : Dev nD) (t : Fin cfg2.N) (j : S16000x1.Idx) (i : S1600000x1.Idx)
    (h0 : (i 0).val = 16000 * t.val + (j 0).val) (h1 : (i 1).val = (j 1).val) :
    k2_pay1 (F := Ideal) (iblk2 V c 0 t) (iblk2 V c 1 t) (iblk2 V c 2 t) (iblk2 V c 3 t) (iblk2 V c 4 t) (iblk2 V c 5 t) j = scores V c i := by
  obtain ⟨p, d, rfl⟩ : ∃ (p : Fin 16000) (d : Fin 1), j = ix2 p d := ⟨j 0, j 1, eq_ix2 j⟩
  obtain ⟨r, d', rfl⟩ : ∃ (r : Fin 1600000) (d' : Fin 1), i = ix2 r d' := ⟨i 0, i 1, eq_ix2 i⟩
  obtain rfl : d' = d := Subsingleton.elim _ _
  exact block_apply V c t p d' r h0

/-- What point `t` writes back is block `t` of `scores`. -/
theorem flushed_eq (c : Dev nD) (t : Fin cfg2.N) :
    (dat2 V c).flushed 6 t = ((cfg2.win 6).blk t).view.read (Elt Ideal) (scores V c) := by
  show (cfg2.win 6).cut (grid2.coords t) ((dat2 V c).after 6 t) = _
  rw [after2_6]
  unfold out2_6
  rw [View.canon_unit_zero hz]
  simp only [View.ld_unit_zero (S := S16000x72) hz, View.ld_unit_zero (S := S72x36) hz, View.ld_unit_zero (S := S1x36) hz,
    View.ld_unit_zero (S := S36x36) hz, View.ld_unit_zero (S := S36x1) hz]
  obtain ⟨e00, e01, e10, e11, e20, e21, e30, e31, e40, e41, e50, e51, e60, e61⟩ := index_facts t
  funext j
  show k2_pay1 (F := Ideal) (iblk2 V c 0 t) (iblk2 V c 1 t) (iblk2 V c 2 t) (iblk2 V c 3 t) (iblk2 V c 4 t) (iblk2 V c 5 t) j
    = scores V c (((cfg2.win 6).blk t).view.emb j)
  refine block_apply_idx V c t j (((cfg2.win 6).blk t).view.emb j) ?_ ?_
  · show win2_6.index t (0 : Fin 2) * 16000 + 1 * (j 0).val = 16000 * t.val + (j 0).val
    rw [e60]; omega
  · show win2_6.index t (1 : Fin 2) * 1 + 1 * (j 1).val = (j 1).val
    rw [e61]; omega

/-- An index of the result is in point `t`'s block iff each coordinate is in the block's range on its axis. -/
theorem mem_block (t : Fin cfg2.N) (i : S1600000x1.Idx) :
    i ∈ ((cfg2.win 6).blk t).view.set ↔ ∀ a : Fin 2, win2_6.index t a * S16000x1.size a ≤ (i a).val
      ∧ (i a).val < win2_6.index t a * S16000x1.size a + S16000x1.size a := by
  show i ∈ ((View.whole main_v71).slice (win2_6.rect t)).set ↔ _
  rw [View.set_slice_whole, Rect.mem_set_unit]
  exact Iff.rfl

/-- Row `r` of the result lies in the block of point `r / 16000`: the blocks tile the rows. -/
theorem covered (i : S1600000x1.Idx) :
    ∃ t : Fin cfg2.N, (cfg2.win 6).flush t = true ∧ i ∈ ((cfg2.win 6).blk t).view.set := by
  have hi0 : (i 0).val < 1600000 := (i 0).isLt
  have hi1 : (i 1).val < 1 := (i 1).isLt
  have hN : cfg2.N = 100 := points
  have ht : (i 0).val / 16000 < cfg2.N := by rw [hN]; omega
  obtain ⟨e00, e01, e10, e11, e20, e21, e30, e31, e40, e41, e50, e51, e60, e61⟩ := index_facts ⟨(i 0).val / 16000, ht⟩
  refine ⟨⟨(i 0).val / 16000, ht⟩, flush2_6 _, ?_⟩
  rw [mem_block]
  intro a
  match a with
  | ⟨0, _⟩ =>
    show win2_6.index ⟨(i 0).val / 16000, ht⟩ (0 : Fin 2) * 16000 ≤ (i 0).val
      ∧ (i 0).val < win2_6.index ⟨(i 0).val / 16000, ht⟩ (0 : Fin 2) * 16000 + 16000
    rw [e60]
    show (i 0).val / 16000 * 16000 ≤ (i 0).val ∧ (i 0).val < (i 0).val / 16000 * 16000 + 16000
    omega
  | ⟨1, _⟩ =>
    show win2_6.index ⟨(i 0).val / 16000, ht⟩ (1 : Fin 2) * 1 ≤ (i 1).val
      ∧ (i 1).val < win2_6.index ⟨(i 0).val / 16000, ht⟩ (1 : Fin 2) * 1 + 1
    rw [e61]; omega

/-- THE RESULT ARRAY after the region: the perceptron of every row of the pair array. -/
theorem region2_array (c : Dev nD) : (dat2 (F := Ideal) V c).arrAt 6 cfg2.N = scores V c :=
  (dat2 V c).arrAt_eq_of_cover 6 (scores V c) (fun t _ => flushed_eq V c t) covered

end Blocks

end Cert.KernelIdeal.BlocksMlp

end
-- ==== Proof.RefStages.lean ====
/-
  The reference program's three matrix-product stages, each as the specification's function of the stages feeding it.

  Each product stage is read entry by entry: the host's dot_general at (r, j) is the sum over the contraction
  index k of left (r, k) times right (k, j).  For the two graph-convolution layers the left operand is the layer's
  input with row r multiplied by the single column entry n (r, 0), repeated along the row; that is
  scaledTimes.  For the per-edge perceptron the three products are chained through a bias row and the logistic
  function written 1 / (1 + e^(-x)) with the word of 1.0; on the extended reals that is the logistic function, so
  the chain is edgeScores.  The arrays feeding the stages are never opened.
-/
import proofs.«144550_j21406117004231_2_alg».proof.Proof.Gen.ReferenceIdeal.Read
import proofs.«144550_j21406117004231_2_alg».proof.Proof.Spec

noncomputable section

namespace Cert.ReferenceIdeal.Stages

open Cert.ReferenceIdeal Cert.ReferenceIdeal.Gen Idealize.ShloMosaic Idealize.ShloMosaic.ValueIdx Idealize.ShloMosaic.StableHlo

/-- Layer 1: rows of the features scaled by the norm column, times the first weight. -/
theorem v16_eq (x0 : (⟨S50000x256, .f32⟩ : BufTy).Contents (Elt Ideal)) (x1 : (⟨S1600000, .i32⟩ : BufTy).Contents (Elt Ideal))
    (x3 : (⟨S256x36, .f32⟩ : BufTy).Contents (Elt Ideal)) :
    Read.val_main_v16 (F := Ideal) x0 x1 x3 = Cert.Graph.scaledTimes x0 (Read.val_main_v13 (F := Ideal) x1) x3 := by
  funext i
  obtain ⟨p, q, rfl⟩ : ∃ (p : Fin 50000) (q : Fin 36), i = ix2 p q := ⟨i 0, i 1, eq_ix2 i⟩
  rw [Read.val_main_v16_apply]
  unfold Cert.Graph.scaledTimes
  refine Finset.sum_congr rfl fun k _ => ?_
  have el : Read.lidx_main_v16 (ix2 p q) k = ix2 p k :=
    funext fun a => Fin.ext (by match a with | ⟨0, _⟩ => rfl | ⟨1, _⟩ => rfl)
  have er : Read.ridx_main_v16 (ix2 p q) k = ix2 k q :=
    funext fun a => Fin.ext (by match a with | ⟨0, _⟩ => rfl | ⟨1, _⟩ => rfl)
  have ec : Read.idx_main_v14 (ix2 p k) = ix2 p (0 : Fin 1) :=
    funext fun a => Fin.ext (by match a with | ⟨0, _⟩ => rfl | ⟨1, _⟩ => rfl)
  rw [el, er, Read.val_main_v15_apply, Read.val_main_v14_apply, ec]
  rfl

/-- Layer 2: rows of the first layer's output scaled by the norm column, times the second weight. -/
theorem v37_eq (x0 : (⟨S50000x256, .f32⟩ : BufTy).Contents (Elt Ideal)) (x1 x2 : (⟨S1600000, .i32⟩ : BufTy).Contents (Elt Ideal))
    (x3 : (⟨S256x36, .f32⟩ : BufTy).Contents (Elt Ideal)) (x4 : (⟨S36, .f32⟩ : BufTy).Contents (Elt Ideal)) (x5 : (⟨S36x36, .f32⟩ : BufTy).Contents (Elt Ideal)) :
    Read.val_main_v37 (F := Ideal) x0 x1 x2 x3 x4 x5
      = Cert.Graph.scaledTimes (Read.val_main_v33 (F := Ideal) x0 x1 x2 x3 x4) (Read.val_main_v34 (F := Ideal) x1) x5 := by
  funext i
  obtain ⟨p, q, rfl⟩ : ∃ (p : Fin 50000) (q : Fin 36), i = ix2 p q := ⟨i 0, i 1, eq_ix2 i⟩
  rw [Read.val_main_v37_apply]
  unfold Cert.Graph.scaledTimes
  refine Finset.sum_congr rfl fun k _ => ?_
  have el : Read.lidx_main_v37 (ix2 p q) k = ix2 p k :=
    funext fun a => Fin.ext (by match a with | ⟨0, _⟩ => rfl | ⟨1, _⟩ => rfl)
  have er : Read.ridx_main_v37 (ix2 p q) k = ix2 k q :=
    funext fun a => Fin.ext (by match a with | ⟨0, _⟩ => rfl | ⟨1, _⟩ => rfl)
  have ec : Read.idx_main_v35 (ix2 p k) = ix2 p (0 : Fin 1) :=
    funext fun a => Fin.ext (by match a with | ⟨0, _⟩ => rfl | ⟨1, _⟩ => rfl)
  rw [el, er, Read.val_main_v36_apply, Read.val_main_v35_apply, ec]
  rfl

/-- The first hidden layer of the reference's perceptron at edge `p`, unit `j`. -/
theorem v78_apply (x0 : (⟨S50000x256, .f32⟩ : BufTy).Contents (Elt Ideal)) (x1 x2 : (⟨S1600000, .i32⟩ : BufTy).Contents (Elt Ideal))
    (x3 : (⟨S256x36, .f32⟩ : BufTy).Contents (Elt Ideal)) (x4 : (⟨S36, .f32⟩ : BufTy).Contents (Elt Ideal)) (x5 : (⟨S36x36, .f32⟩ : BufTy).Contents (Elt Ideal))
    (x6 : (⟨S36, .f32⟩ : BufTy).Contents (Elt Ideal)) (x7 : (⟨S72x36, .f32⟩ : BufTy).Contents (Elt Ideal)) (x8 : (⟨S36, .f32⟩ : BufTy).Contents (Elt Ideal))
    (p : Fin 1600000) (j : Fin 36) :
    Read.val_main_v78 (F := Ideal) x0 x1 x2 x3 x4 x5 x6 x7 x8 (ix2 p j)
      = Cert.Graph.hidden (fun l : Fin 72 => Read.val_main_v68 (F := Ideal) x0 x1 x2 x3 x4 x5 x6 (ix2 p l)) x7
          (Read.val_main_v70 (F := Ideal) x8) j := by
  rw [Read.val_main_v78_apply, Read.val_main_v77_apply, Read.val_main_cst_16_apply, Read.val_main_v76_apply,
    Read.val_main_v75_apply, Read.val_main_cst_15_apply, Read.val_main_v74_apply, Read.val_main_v73_apply,
    Read.val_main_v72_apply, Read.val_main_v71_apply, Read.val_main_v69_apply]
  have el : ∀ k : Fin 72, Read.lidx_main_v69 (ix2 p j) k = ix2 p k := fun k =>
    funext fun a => Fin.ext (by match a with | ⟨0, _⟩ => rfl | ⟨1, _⟩ => rfl)
  have er : ∀ k : Fin 72, Read.ridx_main_v69 (ix2 p j) k = ix2 k j := fun k =>
    funext fun a => Fin.ext (by match a with | ⟨0, _⟩ => rfl | ⟨1, _⟩ => rfl)
  have eb : Read.idx_main_v71 (ix2 p j) = ix2 (0 : Fin 1) j :=
    funext fun a => Fin.ext (by match a with | ⟨0, _⟩ => rfl | ⟨1, _⟩ => rfl)
  simp only [el, er, eb, Ideal.hostDivf_def, Ideal.addf_def, Ideal.hostUnary_exp_def, Ideal.hostNegf_def,
    Ideal.negf_def, Ideal.ofBits_def]
  exact Cert.Graph.logistic_spelt _

/-- The second hidden layer at edge `p`, unit `k`. -/
theorem v88_apply (x0 : (⟨S50000x256, .f32⟩ : BufTy).Contents (Elt Ideal)) (x1 x2 : (⟨S1600000, .i32⟩ : BufTy).Contents (Elt Ideal))
    (x3 : (⟨S256x36, .f32⟩ : BufTy).Contents (Elt Ideal)) (x4 : (⟨S36, .f32⟩ : BufTy).Contents (Elt Ideal)) (x5 : (⟨S36x36, .f32⟩ : BufTy).Contents (Elt Ideal))
    (x6 : (⟨S36, .f32⟩ : BufTy).Contents (Elt Ideal)) (x7 : (⟨S72x36, .f32⟩ : BufTy).Contents (Elt Ideal)) (x8 : (⟨S36, .f32⟩ : BufTy).Contents (Elt Ideal))
    (x9 : (⟨S36x36, .f32⟩ : BufTy).Contents (Elt Ideal)) (x10 : (⟨S36, .f32⟩ : BufTy).Contents (Elt Ideal))
    (p : Fin 1600000) (k : Fin 36) :
    Read.val_main_v88 (F := Ideal) x0 x1 x2 x3 x4 x5 x6 x7 x8 x9 x10 (ix2 p k)
      = Cert.Graph.hidden (fun j : Fin 36 => Cert.Graph.hidden
            (fun l : Fin 72 => Read.val_main_v68 (F := Ideal) x0 x1 x2 x3 x4 x5 x6 (ix2 p l)) x7
            (Read.val_main_v70 (F := Ideal) x8) j) x9 (Read.val_main_v80 (F := Ideal) x10) k := by
  rw [Read.val_main_v88_apply, Read.val_main_v87_apply, Read.val_main_cst_18_apply, Read.val_main_v86_apply,
    Read.val_main_v85_apply, Read.val_main_cst_17_apply, Read.val_main_v84_apply, Read.val_main_v83_apply,
    Read.val_main_v82_apply, Read.val_main_v81_apply, Read.val_main_v79_apply]
  have el : ∀ m : Fin 36, Read.lidx_main_v79 (ix2 p k) m = ix2 p m := fun m =>
    funext fun a => Fin.ext (by match a with | ⟨0, _⟩ => rfl | ⟨1, _⟩ => rfl)
  have er : ∀ m : Fin 36, Read.ridx_main_v79 (ix2 p k) m = ix2 m k := fun m =>
    funext fun a => Fin.ext (by match a with | ⟨0, _⟩ => rfl | ⟨1, _⟩ => rfl)
  have eb : Read.idx_main_v81 (ix2 p k) = ix2 (0 : Fin 1) k :=
    funext fun a => Fin.ext (by match a with | ⟨0, _⟩ => rfl | ⟨1, _⟩ => rfl)
  simp only [el, er, eb, v78_apply, Ideal.hostDivf_def, Ideal.addf_def, Ideal.hostUnary_exp_def, Ideal.hostNegf_def,
    Ideal.negf_def, Ideal.ofBits_def]
  exact Cert.Graph.logistic_spelt _

/-- The per-edge perceptron: the reference's last product stage is `edgeScores` of the pair array. -/
theorem v89_eq (x0 : (⟨S50000x256, .f32⟩ : BufTy).Contents (Elt Ideal)) (x1 x2 : (⟨S1600000, .i32⟩ : BufTy).Contents (Elt Ideal))
    (x3 : (⟨S256x36, .f32⟩ : BufTy).Contents (Elt Ideal)) (x4 : (⟨S36, .f32⟩ : BufTy).Contents (Elt Ideal)) (x5 : (⟨S36x36, .f32⟩ : BufTy).Contents (Elt Ideal))
    (x6 : (⟨S36, .f32⟩ : BufTy).Contents (Elt Ideal)) (x7 : (⟨S72x36, .f32⟩ : BufTy).Contents (Elt Ideal)) (x8 : (⟨S36, .f32⟩ : BufTy).Contents (Elt Ideal))
    (x9 : (⟨S36x36, .f32⟩ : BufTy).Contents (Elt Ideal)) (x10 : (⟨S36, .f32⟩ : BufTy).Contents (Elt Ideal)) (x11 : (⟨S36x1, .f32⟩ : BufTy).Contents (Elt Ideal)) :
    Read.val_main_v89 (F := Ideal) x0 x1 x2 x3 x4 x5 x6 x7 x8 x9 x10 x11
      = Cert.Graph.edgeScores (Read.val_main_v68 (F := Ideal) x0 x1 x2 x3 x4 x5 x6) x7 (Read.val_main_v70 (F := Ideal) x8) x9
          (Read.val_main_v80 (F := Ideal) x10) x11 := by
  funext i
  obtain ⟨p, q, rfl⟩ : ∃ (p : Fin 1600000) (q : Fin 1), i = ix2 p q := ⟨i 0, i 1, eq_ix2 i⟩
  rw [Read.val_main_v89_apply]
  unfold Cert.Graph.edgeScores Cert.Graph.mlpRow
  refine Finset.sum_congr rfl fun k _ => ?_
  have el : Read.lidx_main_v89 (ix2 p q) k = ix2 p k :=
    funext fun a => Fin.ext (by match a with | ⟨0, _⟩ => rfl | ⟨1, _⟩ => rfl)
  have er : Read.ridx_main_v89 (ix2 p q) k = ix2 k q :=
    funext fun a => Fin.ext (by match a with | ⟨0, _⟩ => rfl | ⟨1, _⟩ => rfl)
  rw [el, er, v88_apply]

end Cert.ReferenceIdeal.Stages

end
-- ==== Proof.KernelFold.lean ====
/-
  The idealized kernel's result is the reference's last stage of the same arguments.

  Walking the buffer contents from the launch through the twelve segments of @main: before the first pipeline the
  degree norms are the reference's; the first pipeline leaves (x · norm) W1, which is the reference's first product;
  the stretches after it aggregate, normalise, add the bias and rectify exactly as the reference does; the second
  pipeline leaves the second product; the long stretch after it forms the second layer's output and gathers it in
  source–destination pairs as the reference does (the casts to bf16 are the identity on the extended reals, and a
  bias reshaped to one row is the bias repeated into one row); the edge pipeline leaves the perceptron of every
  pair, which is the reference's last product of its two logistic layers. No step needs an entry to be finite.
-/
import proofs.«144550_j21406117004231_2_alg».proof.Proof.Gen.KernelIdeal.Frame
import proofs.«144550_j21406117004231_2_alg».proof.Proof.HostStages
import proofs.«144550_j21406117004231_2_alg».proof.Proof.HostStages2
import proofs.«144550_j21406117004231_2_alg».proof.Proof.BlocksScale
import proofs.«144550_j21406117004231_2_alg».proof.Proof.BlocksMlp
import proofs.«144550_j21406117004231_2_alg».proof.Proof.RefStages

set_option maxRecDepth 16384

noncomputable section

namespace Cert.Bridge

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg) (c : Dev nD)

/-- The row-scaled product depends on its three arrays only. -/
theorem scaledTimes_congr {M K N : Nat} {x x' : (⟨2, ![M, K]⟩ : Shape).Idx → EReal} {n n' : (⟨2, ![M, 1]⟩ : Shape).Idx → EReal}
    {w w' : (⟨2, ![K, N]⟩ : Shape).Idx → EReal} (hx : x = x') (hn : n = n') (hw : w = w') :
    Cert.Graph.scaledTimes x n w = Cert.Graph.scaledTimes x' n' w' := by
  subst hx hn hw; rfl

/-- The perceptron of every row depends on its six arrays only. -/
theorem edgeScores_congr {E A B C D : Nat} {p p' : (⟨2, ![E, A]⟩ : Shape).Idx → EReal}
    {w1 w1' : (⟨2, ![A, B]⟩ : Shape).Idx → EReal} {b1 b1' : (⟨2, ![1, B]⟩ : Shape).Idx → EReal}
    {w2 w2' : (⟨2, ![B, C]⟩ : Shape).Idx → EReal} {b2 b2' : (⟨2, ![1, C]⟩ : Shape).Idx → EReal}
    {w3 w3' : (⟨2, ![C, D]⟩ : Shape).Idx → EReal}
    (hp : p = p') (h1 : w1 = w1') (hb1 : b1 = b1') (h2 : w2 = w2') (hb2 : b2 = b2') (h3 : w3 = w3') :
    Cert.Graph.edgeScores p w1 b1 w2 b2 w3 = Cert.Graph.edgeScores p' w1' b1' w2' b2' w3' := by
  subst hp h1 hb1 h2 hb2 h3; rfl

/-! ## At the first pipeline's entry -/

theorem at5_arg0 : W5 m ρ c (Proc.devRef .tc main_arg0) = m ((c.tc : Thread nD τ).loc main_arg0) := before0_arg0 (W0 m ρ c)
theorem at5_arg1 : W5 m ρ c (Proc.devRef .tc main_arg1) = m ((c.tc : Thread nD τ).loc main_arg1) := before0_arg1 (W0 m ρ c)
theorem at5_arg2 : W5 m ρ c (Proc.devRef .tc main_arg2) = m ((c.tc : Thread nD τ).loc main_arg2) := before0_arg2 (W0 m ρ c)
theorem at5_arg3 : W5 m ρ c (Proc.devRef .tc main_arg3) = m ((c.tc : Thread nD τ).loc main_arg3) := before0_arg3 (W0 m ρ c)
theorem at5_arg4 : W5 m ρ c (Proc.devRef .tc main_arg4) = m ((c.tc : Thread nD τ).loc main_arg4) := before0_arg4 (W0 m ρ c)
theorem at5_arg5 : W5 m ρ c (Proc.devRef .tc main_arg5) = m ((c.tc : Thread nD τ).loc main_arg5) := before0_arg5 (W0 m ρ c)
theorem at5_v9 : (W5 m ρ c (Proc.devRef .tc main_v9) : S50000.Idx → EReal)
    = Cert.ReferenceIdeal.Read.val_main_v9 (F := Ideal) (m ((c.tc : Thread nD τ).loc main_arg1)) := before0_v9 (W0 m ρ c)
theorem at5_v12 : (W5 m ρ c (Proc.devRef .tc main_v12) : S50000.Idx → EReal)
    = Cert.ReferenceIdeal.Read.val_main_v12 (F := Ideal) (m ((c.tc : Thread nD τ).loc main_arg2)) := before0_v12 (W0 m ρ c)
theorem at5_v13 : (W5 m ρ c (Proc.devRef .tc main_v13) : S50000x1.Idx → EReal)
    = Cert.ReferenceIdeal.Read.val_main_v13 (F := Ideal) (m ((c.tc : Thread nD τ).loc main_arg1)) := before0_v13 (W0 m ρ c)

/-! ## After the first pipeline -/

/-- The first pipeline leaves the reference's first product. -/
theorem at6_v14 : (W6 m ρ c (Proc.devRef .tc main_v14) : S50000x36.Idx → EReal)
    = Cert.ReferenceIdeal.Read.val_main_v16 (F := Ideal) (m ((c.tc : Thread nD τ).loc main_arg0)) (m ((c.tc : Thread nD τ).loc main_arg1)) (m ((c.tc : Thread nD τ).loc main_arg3)) := by
  refine (W6_arr m ρ c 3).trans ?_
  refine (Cert.KernelIdeal.Blocks.region0_array (V5 m ρ) c).trans ?_
  rw [Cert.ReferenceIdeal.Stages.v16_eq]
  exact scaledTimes_congr (at5_arg0 m ρ c) (at5_v13 m ρ c) (at5_arg3 m ρ c)

theorem at6_arg1 : W6 m ρ c (Proc.devRef .tc main_arg1) = m ((c.tc : Thread nD τ).loc main_arg1) :=
  (W6_of_ne m ρ c main_arg1 (by decide)).trans (at5_arg1 m ρ c)
theorem at6_arg2 : W6 m ρ c (Proc.devRef .tc main_arg2) = m ((c.tc : Thread nD τ).loc main_arg2) :=
  (W6_of_ne m ρ c main_arg2 (by decide)).trans (at5_arg2 m ρ c)
theorem at6_arg4 : W6 m ρ c (Proc.devRef .tc main_arg4) = m ((c.tc : Thread nD τ).loc main_arg4) :=
  (W6_of_ne m ρ c main_arg4 (by decide)).trans (at5_arg4 m ρ c)
theorem at6_arg5 : W6 m ρ c (Proc.devRef .tc main_arg5) = m ((c.tc : Thread nD τ).loc main_arg5) :=
  (W6_of_ne m ρ c main_arg5 (by decide)).trans (at5_arg5 m ρ c)
theorem at6_v9 : (W6 m ρ c (Proc.devRef .tc main_v9) : S50000.Idx → EReal)
    = Cert.ReferenceIdeal.Read.val_main_v9 (F := Ideal) (m ((c.tc : Thread nD τ).loc main_arg1)) :=
  (W6_of_ne m ρ c main_v9 (by decide)).trans (at5_v9 m ρ c)
theorem at6_v12 : (W6 m ρ c (Proc.devRef .tc main_v12) : S50000.Idx → EReal)
    = Cert.ReferenceIdeal.Read.val_main_v12 (F := Ideal) (m ((c.tc : Thread nD τ).loc main_arg2)) :=
  (W6_of_ne m ρ c main_v12 (by decide)).trans (at5_v12 m ρ c)

/-! ## At the second pipeline's entry, and after it -/

theorem at9_v31 : (W9 m ρ c (Proc.devRef .tc main_v31) : S50000x36.Idx → EReal)
    = Cert.ReferenceIdeal.Read.val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  before1_v31 (W6 m ρ c) _ _ _ _ _ (at6_v14 m ρ c) (at6_v12 m ρ c) (at6_arg1 m ρ c) (at6_arg2 m ρ c) (at6_arg4 m ρ c)
theorem at9_v32 : (W9 m ρ c (Proc.devRef .tc main_v32) : S50000x1.Idx → EReal)
    = Cert.ReferenceIdeal.Read.val_main_v34 (F := Ideal) (m ((c.tc : Thread nD τ).loc main_arg1)) :=
  before1_v32 (W6 m ρ c) _ (at6_v9 m ρ c)
theorem at9_arg5 : W9 m ρ c (Proc.devRef .tc main_arg5) = m ((c.tc : Thread nD τ).loc main_arg5) :=
  (before1_arg5 (W6 m ρ c)).trans (at6_arg5 m ρ c)

/-- The second pipeline leaves the reference's second product. -/
theorem at10_v33 : (W10 m ρ c (Proc.devRef .tc main_v33) : S50000x36.Idx → EReal)
    = Cert.ReferenceIdeal.Read.val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W10_arr m ρ c 3).trans ?_
  refine (Cert.KernelIdeal.Blocks.region1_array (V9 m ρ) c).trans ?_
  rw [Cert.ReferenceIdeal.Stages.v37_eq]
  exact scaledTimes_congr (at9_v31 m ρ c) (at9_v32 m ρ c) (at9_arg5 m ρ c)

theorem at10_v12 : (W10 m ρ c (Proc.devRef .tc main_v12) : S50000.Idx → EReal)
    = Cert.ReferenceIdeal.Read.val_main_v12 (F := Ideal) (m ((c.tc : Thread nD τ).loc main_arg2)) :=
  ((W10_of_ne m ρ c main_v12 (by decide)).trans (before1_v12 (W6 m ρ c))).trans (at6_v12 m ρ c)

/-- An argument array holds its launch contents when the edge pipeline is about to be prepared: nothing between
    there and the end of the run writes it, and at the end it holds them. -/
theorem at10_arg (b : Ref sig .tc)
    (hb : b = main_arg0 ∨ b = main_arg1 ∨ b = main_arg2 ∨ b = main_arg3 ∨ b = main_arg4 ∨ b = main_arg5 ∨ b = main_arg6
      ∨ b = main_arg7 ∨ b = main_arg8 ∨ b = main_arg9 ∨ b = main_arg10 ∨ b = main_arg11)
    (hne : ∀ w, Pipeline.arrRef spec2 w ≠ b)
    (hend : W12 m ρ c (Proc.devRef .tc b) = m ((c.tc : Thread nD τ).loc b)) :
    W10 m ρ c (Proc.devRef .tc b) = m ((c.tc : Thread nD τ).loc b) :=
  ((before2_arg (W10 m ρ c) b hb).symm.trans (W12_of_ne m ρ c b hne).symm).trans hend

/-! ## At the edge pipeline's entry, and the result -/

theorem at11_v65 : (W11 m ρ c (Proc.devRef .tc main_v65) : S1600000x72.Idx → EReal)
    = Cert.ReferenceIdeal.Read.val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  before2_v65 (W10 m ρ c) _ _ _ _ _ _ _ (at10_v33 m ρ c) (at10_v12 m ρ c)
    (at10_arg m ρ c main_arg1 (by decide) (by decide) (W12_main_arg1 m ρ c))
    (at10_arg m ρ c main_arg2 (by decide) (by decide) (W12_main_arg2 m ρ c))
    (at10_arg m ρ c main_arg6 (by decide) (by decide) (W12_main_arg6 m ρ c))
theorem at11_v66 : (W11 m ρ c (Proc.devRef .tc main_v66) : S72x36.Idx → EReal) = m ((c.tc : Thread nD τ).loc main_arg7) :=
  (before2_v66 (W10 m ρ c)).trans (at10_arg m ρ c main_arg7 (by decide) (by decide) (W12_main_arg7 m ρ c))
theorem at11_v67 : (W11 m ρ c (Proc.devRef .tc main_v67) : S36x36.Idx → EReal) = m ((c.tc : Thread nD τ).loc main_arg9) :=
  (before2_v67 (W10 m ρ c)).trans (at10_arg m ρ c main_arg9 (by decide) (by decide) (W12_main_arg9 m ρ c))
theorem at11_v68 : (W11 m ρ c (Proc.devRef .tc main_v68) : S36x1.Idx → EReal) = m ((c.tc : Thread nD τ).loc main_arg11) :=
  (before2_v68 (W10 m ρ c)).trans (at10_arg m ρ c main_arg11 (by decide) (by decide) (W12_main_arg11 m ρ c))
theorem at11_v69 : (W11 m ρ c (Proc.devRef .tc main_v69) : S1x36.Idx → EReal)
    = Cert.ReferenceIdeal.Read.val_main_v70 (F := Ideal) (m ((c.tc : Thread nD τ).loc main_arg8)) :=
  (before2_v69 (W10 m ρ c)).trans (congrArg (Cert.ReferenceIdeal.Read.val_main_v70 (F := Ideal))
    (at10_arg m ρ c main_arg8 (by decide) (by decide) (W12_main_arg8 m ρ c)))
theorem at11_v70 : (W11 m ρ c (Proc.devRef .tc main_v70) : S1x36.Idx → EReal)
    = Cert.ReferenceIdeal.Read.val_main_v80 (F := Ideal) (m ((c.tc : Thread nD τ).loc main_arg10)) :=
  (before2_v70 (W10 m ρ c)).trans (congrArg (Cert.ReferenceIdeal.Read.val_main_v80 (F := Ideal))
    (at10_arg m ρ c main_arg10 (by decide) (by decide) (W12_main_arg10 m ρ c)))

/-- What the edge pipeline's write-backs leave is the reference's last stage of the launch arguments. -/
theorem kernel_result :
    (dat2 (V11 m ρ) c).arrAt 6 cfg2.N
      = Cert.ReferenceIdeal.Read.val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (Cert.KernelIdeal.BlocksMlp.region2_array (V11 m ρ) c).trans ?_
  rw [Cert.ReferenceIdeal.Stages.v89_eq]
  exact edgeScores_congr (at11_v65 m ρ c) (at11_v66 m ρ c) (at11_v69 m ρ c) (at11_v67 m ρ c) (at11_v70 m ρ c) (at11_v68 m ρ c)

end Cert.Bridge

end
-- ==== Proof.lean ====
/-
  The proof of `Cert.Claim`: the kernel as printed and its idealization run with their arguments unchanged, the
  idealized reference likewise, and at the ideal instance (floats extended reals, every operation exact, a change
  of format the identity) the idealized kernel and the idealized reference end with equal result arrays.

  The mathematics. The program is a two-layer graph convolution followed by a perceptron on every edge. Each
  convolution layer multiplies every row of its [50000, K] input by that row's normalisation factor and then by a
  [K, 36] weight; the kernel computes it 5000 rows at a time, the reference as one product, and since row r of a
  product depends on row r of the left operand only, the ten blocks of rows are the whole product. The edge
  perceptron — σ (p · W₁ + b₁), σ (· W₂ + b₂), · W₃ with σ the logistic function — is computed by the kernel
  16000 rows of the [1600000, 72] pair array at a time, by the reference on the whole array with σ spelt
  1 / (1 + e^(-x)); again a block of rows of the result depends on the same rows of the pair array only. The
  operations around the three blocked computations (gathers and scatter-adds along the edges, the degree
  normalisation, the rectifier, the concatenation of an edge's two endpoint rows, casts to a narrower format,
  which the extended reals do not see) are matched side by side on equal values. So the kernel's result array is
  the reference's composed function of the twelve argument arrays (`Cert.Bridge.kernel_result`), and the two runs
  from memories that agree on the arguments end with the same array.

  The pieces: the generated frame runs give the three frame claims (the reference's from its value run); the
  idealization is the program's own text read on the extended reals, no operation rewritten, so there is nothing
  to preserve; the algebraic claim takes the kernel's run with its result named as what the edge pipeline's
  write-backs leave, that array as the reference's function of the kernel's arguments, and the reference's run
  read as the same function of its own arguments.
-/
import proofs.«144550_j21406117004231_2_alg».proof.Defs
import proofs.«144550_j21406117004231_2_alg».proof.Proof.Gen.Kernel
import proofs.«144550_j21406117004231_2_alg».proof.Proof.Gen.Kernel.Skeleton
import proofs.«144550_j21406117004231_2_alg».proof.Proof.Gen.Kernel.Launch
import proofs.«144550_j21406117004231_2_alg».proof.Proof.Gen.Kernel.Points
import proofs.«144550_j21406117004231_2_alg».proof.Proof.Gen.Kernel.Frame
import proofs.«144550_j21406117004231_2_alg».proof.Proof.Gen.KernelIdeal
import proofs.«144550_j21406117004231_2_alg».proof.Proof.Gen.KernelIdeal.Skeleton
import proofs.«144550_j21406117004231_2_alg».proof.Proof.Gen.KernelIdeal.Launch
import proofs.«144550_j21406117004231_2_alg».proof.Proof.Gen.KernelIdeal.Points
import proofs.«144550_j21406117004231_2_alg».proof.Proof.Gen.KernelIdeal.Frame
import proofs.«144550_j21406117004231_2_alg».proof.Proof.Gen.ReferenceIdeal
import proofs.«144550_j21406117004231_2_alg».proof.Proof.Gen.Pre_finite_inputs
import proofs.«144550_j21406117004231_2_alg».proof.Proof.Gen.ReferenceIdeal.Run
import proofs.«144550_j21406117004231_2_alg».proof.Proof.Gen.ReferenceIdeal.Read
import proofs.«144550_j21406117004231_2_alg».proof.Proof.KernelRun
import proofs.«144550_j21406117004231_2_alg».proof.Proof.KernelFold
import Idealize.ShloMosaic.Adequacy
import Idealize.ShloMosaic.Init

noncomputable section

namespace Cert.Proof

open Idealize.ShloMosaic Idealize.SL.Sem

/-- The kernel as printed runs, its arguments unchanged. -/
theorem frame_kernel : Cert.frame_Kernel := fun m ρ _ => Cert.Kernel.Gen.frame m ρ

/-- Its idealization runs, its arguments unchanged. -/
theorem frame_kernelIdeal : Cert.frame_KernelIdeal := fun m ρ _ => Cert.KernelIdeal.Gen.frame m ρ

/-- The idealized reference runs, its arguments unchanged: its value run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the program's own text read on the extended reals: no operation was rewritten. -/
theorem preserves : Cert.preserves_Kernel_KernelIdeal := trivial

/-- The common result: the reference's composed function of the twelve argument arrays, at the kernel's arguments. -/
abbrev result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v71) :=
  Cert.ReferenceIdeal.Read.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))

/-- On the extended reals the idealized kernel and the idealized reference, from memories that agree on the
    arguments, both run and end with the same result array, `result`, and unchanged arguments. -/
theorem algebraic : Cert.algebraic_KernelIdeal_ReferenceIdeal := by
  intro m ρ m' ρ' _ hagree
  refine ⟨fun c => result m c, ?_, ?_⟩
  · exact (θ_run Cert.KernelIdeal.defs _ _).mono
      (fun r h c => ⟨(h c).1.trans (Cert.Bridge.kernel_result m ρ c), (h c).2⟩)
      (Cert.KernelIdeal.RunValue.run (F := Ideal) m ρ)
  · refine (θ_run Cert.ReferenceIdeal.defs _ _).mono
      (fun _ h c => ⟨((h c).1.trans (Cert.ReferenceIdeal.Read.val_main_v89_eq m' c)).trans ?_, (h c).2⟩)
      (Cert.ReferenceIdeal.Value.run (F := Ideal) m' ρ')
    obtain ⟨h0, h1, h2, h3, h4, h5, h6, h7, h8, h9, h10, h11⟩ := hagree c
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
